-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16x5 : Shape := ⟨3, ![2048, 16, 5]⟩
abbrev S2048x16x2048 : Shape := ⟨3, ![2048, 16, 2048]⟩
abbrev S2048x16x4 : Shape := ⟨3, ![2048, 16, 4]⟩
abbrev S2048x16 : Shape := ⟨2, ![2048, 16]⟩
abbrev S_ : Shape := ⟨0, ![]⟩

class Facts : Prop where
  bcast_S_S2048x16x5 : S_.BroadcastsInDim S2048x16x5 (![] : Fin 0 → Fin S2048x16x5.rank)
  reducesTo_S2048x16x5_S_d0_1_2 : S2048x16x5.ReducesTo [0, 1, 2] S_
  h_S_ : 0 < S_.numel
  bcast_S_S2048x16x2048 : S_.BroadcastsInDim S2048x16x2048 (![] : Fin 0 → Fin S2048x16x2048.rank)
  reducesTo_S2048x16x2048_S_d0_1_2 : S2048x16x2048.ReducesTo [0, 1, 2] S_
  bcast_S_S2048x16x4 : S_.BroadcastsInDim S2048x16x4 (![] : Fin 0 → Fin S2048x16x4.rank)
  reducesTo_S2048x16x4_S_d0_1_2 : S2048x16x4.ReducesTo [0, 1, 2] S_

variable [Facts]

def fn_part1 {F : FTy → Type} [FloatOps F] (main_arg4 : FVec F S2048x16x4 .f32) (main_v13 : IVec S_ 1) (main_v16 : IVec S2048x16x4 1) : IVec S_ 1 :=
  let main_c_5 : IVec S_ 1 := constantI S_ 1 1#1
  let main_v17 : IVec S_ 1 := (fun x v => Host.reduce IntOp.andi x v reducesTo_S2048x16x4_S_d0_1_2 h_S_) main_v16 main_c_5
  let main_v18 : IVec S_ 1 := andi main_v13 main_v17
  let main_v19 : FVec F S2048x16x4 .f32 := Host.absf main_arg4
  let main_cst_6 : FVec F S_ .f32 := constant S_ .f32 0x7F800000#32
  let main_v20 : FVec F S2048x16x4 .f32 := broadcastInDim S2048x16x4 ![] bcast_S_S2048x16x4 main_cst_6
  let main_v21 : IVec S2048x16x4 1 := cmpf .olt main_v19 main_v20
  let main_c_7 : IVec S_ 1 := constantI S_ 1 1#1
  let main_v22 : IVec S_ 1 := (fun x v => Host.reduce IntOp.andi x v reducesTo_S2048x16x4_S_d0_1_2 h_S_) main_v21 main_c_7
  let main_v23 : IVec S_ 1 := andi main_v18 main_v22
  main_v23

def fn {F : FTy → Type} [FloatOps F] (main_arg0 : FVec F S2048x16x5 .f32) (main_arg1 : FVec F S2048x16x2048 .f32) (main_arg2 : FVec F S2048x16x2048 .f32) (main_arg3 : FVec F S2048x16x4 .f32) (main_arg4 : FVec F S2048x16x4 .f32) (main_arg5 : IVec S2048x16 32) : IVec S_ 1 :=
  let main_v0 : FVec F S2048x16x5 .f32 := Host.absf main_arg0
  let main_cst : FVec F S_ .f32 := constant S_ .f32 0x7F800000#32
  let main_v1 : FVec F S2048x16x5 .f32 := broadcastInDim S2048x16x5 ![] bcast_S_S2048x16x5 main_cst
  let main_v2 : IVec S2048x16x5 1 := cmpf .olt main_v0 main_v1
  let main_c : IVec S_ 1 := constantI S_ 1 1#1
  let main_v3 : IVec S_ 1 := (fun x v => Host.reduce IntOp.andi x v reducesTo_S2048x16x5_S_d0_1_2 h_S_) main_v2 main_c
  let main_v4 : FVec F S2048x16x2048 .f32 := Host.absf main_arg1
  let main_cst_0 : FVec F S_ .f32 := constant S_ .f32 0x7F800000#32
  let main_v5 : FVec F S2048x16x2048 .f32 := broadcastInDim S2048x16x2048 ![] bcast_S_S2048x16x2048 main_cst_0
  let main_v6 : IVec S2048x16x2048 1 := cmpf .olt main_v4 main_v5
  let main_c_1 : IVec S_ 1 := constantI S_ 1 1#1
  let main_v7 : IVec S_ 1 := (fun x v => Host.reduce IntOp.andi x v reducesTo_S2048x16x2048_S_d0_1_2 h_S_) main_v6 main_c_1
  let main_v8 : IVec S_ 1 := andi main_v3 main_v7
  let main_v9 : FVec F S2048x16x2048 .f32 := Host.absf main_arg2
  let main_cst_2 : FVec F S_ .f32 := constant S_ .f32 0x7F800000#32
  let main_v10 : FVec F S2048x16x2048 .f32 := broadcastInDim S2048x16x2048 ![] bcast_S_S2048x16x2048 main_cst_2
  let main_v11 : IVec S2048x16x2048 1 := cmpf .olt main_v9 main_v10
  let main_c_3 : IVec S_ 1 := constantI S_ 1 1#1
  let main_v12 : IVec S_ 1 := (fun x v => Host.reduce IntOp.andi x v reducesTo_S2048x16x2048_S_d0_1_2 h_S_) main_v11 main_c_3
  let main_v13 : IVec S_ 1 := andi main_v8 main_v12
  let main_v14 : FVec F S2048x16x4 .f32 := Host.absf main_arg3
  let main_cst_4 : FVec F S_ .f32 := constant S_ .f32 0x7F800000#32
  let main_v15 : FVec F S2048x16x4 .f32 := broadcastInDim S2048x16x4 ![] bcast_S_S2048x16x4 main_cst_4
  let main_v16 : IVec S2048x16x4 1 := cmpf .olt main_v14 main_v15
  fn_part1 (F := F) main_arg4 main_v13 main_v16
-- ==== Kernel.lean ====
abbrev S2048x16x5 : Shape := ⟨3, ![2048, 16, 5]⟩
abbrev S2048x16x2048 : Shape := ⟨3, ![2048, 16, 2048]⟩
abbrev S2048x16x4 : Shape := ⟨3, ![2048, 16, 4]⟩
abbrev S2048x16 : Shape := ⟨2, ![2048, 16]⟩
abbrev S_ : Shape := ⟨0, ![]⟩
abbrev S2048 : Shape := ⟨1, ![2048]⟩
abbrev S2048x4 : Shape := ⟨2, ![2048, 4]⟩
abbrev S2048x1x4 : Shape := ⟨3, ![2048, 1, 4]⟩
abbrev S2048x16x4x1 : Shape := ⟨4, ![2048, 16, 4, 1]⟩
abbrev S1 : Shape := ⟨1, ![1]⟩
abbrev S1x1x1x1 : Shape := ⟨4, ![1, 1, 1, 1]⟩
abbrev S2048x16x16 : Shape := ⟨3, ![2048, 16, 16]⟩
abbrev S16x16x2048 : Shape := ⟨3, ![16, 16, 2048]⟩
abbrev S16x16x16 : Shape := ⟨3, ![16, 16, 16]⟩
abbrev S16x16 : Shape := ⟨2, ![16, 16]⟩
abbrev S16x16x1 : Shape := ⟨3, ![16, 16, 1]⟩
abbrev S16x1x16 : Shape := ⟨3, ![16, 1, 16]⟩
abbrev S2048x16x1 : Shape := ⟨3, ![2048, 16, 1]⟩
abbrev S2048x16x1x4 : Shape := ⟨4, ![2048, 16, 1, 4]⟩
abbrev S2048x1x16x4 : Shape := ⟨4, ![2048, 1, 16, 4]⟩
abbrev S2048x16x16x4 : Shape := ⟨4, ![2048, 16, 16, 4]⟩
abbrev S16 : Shape := ⟨1, ![16]⟩
abbrev S1x16 : Shape := ⟨2, ![1, 16]⟩
abbrev S2048x1 : Shape := ⟨2, ![2048, 1]⟩
abbrev S2048x1x16 : Shape := ⟨3, ![2048, 1, 16]⟩

abbrev nBuf : Space → Nat
  | .hbm => 89
  | .vmem => 6
  | .smem => 0
  | _ => 0

abbrev bufTy : (tb : Table) → Fin (tcTables nBuf tb) → BufTy
  | .hbm, ⟨0, _⟩ => ⟨S2048x16x5, .f32⟩
  | .hbm, ⟨1, _⟩ => ⟨S2048x16x2048, .f32⟩
  | .hbm, ⟨2, _⟩ => ⟨S2048x16x2048, .f32⟩
  | .hbm, ⟨3, _⟩ => ⟨S2048x16x4, .f32⟩
  | .hbm, ⟨4, _⟩ => ⟨S2048x16x4, .f32⟩
  | .hbm, ⟨5, _⟩ => ⟨S2048x16, .i32⟩
  | .hbm, ⟨6, _⟩ => ⟨S_, .i32⟩
  | .hbm, ⟨7, _⟩ => ⟨S2048x16, .i32⟩
  | .hbm, ⟨8, _⟩ => ⟨S2048x16, .i1⟩
  | .hbm, ⟨9, _⟩ => ⟨S2048x16, .i32⟩
  | .hbm, ⟨10, _⟩ => ⟨S_, .i32⟩
  | .hbm, ⟨11, _⟩ => ⟨S2048, .i32⟩
  | .hbm, ⟨12, _⟩ => ⟨S2048x4, .i32⟩
  | .hbm, ⟨13, _⟩ => ⟨S_, .i32⟩
  | .hbm, ⟨14, _⟩ => ⟨S2048x4, .i32⟩
  | .hbm, ⟨15, _⟩ => ⟨S2048x4, .i1⟩
  | .hbm, ⟨16, _⟩ => ⟨S2048x4, .i32⟩
  | .hbm, ⟨17, _⟩ => ⟨S2048x4, .i32⟩
  | .hbm, ⟨18, _⟩ => ⟨S2048x1x4, .i32⟩
  | .hbm, ⟨19, _⟩ => ⟨S2048x16x4, .i32⟩
  | .hbm, ⟨20, _⟩ => ⟨S_, .i32⟩
  | .hbm, ⟨21, _⟩ => ⟨S2048x16x4, .i32⟩
  | .hbm, ⟨22, _⟩ => ⟨S2048x16x4, .i1⟩
  | .hbm, ⟨23, _⟩ => ⟨S_, .i32⟩
  | .hbm, ⟨24, _⟩ => ⟨S2048x16x4, .i32⟩
  | .hbm, ⟨25, _⟩ => ⟨S2048x16x4, .i32⟩
  | .hbm, ⟨26, _⟩ => ⟨S2048x16x4, .i32⟩
  | .hbm, ⟨27, _⟩ => ⟨S2048x16x4x1, .i32⟩
  | .hbm, ⟨28, _⟩ => ⟨S1, .i32⟩
  | .hbm, ⟨29, _⟩ => ⟨S_, .i32⟩
  | .hbm, ⟨30, _⟩ => ⟨S2048x16x4x1, .i32⟩
  | .hbm, ⟨31, _⟩ => ⟨S2048x16x4x1, .i1⟩
  | .hbm, ⟨32, _⟩ => ⟨S1x1x1x1, .i32⟩
  | .hbm, ⟨33, _⟩ => ⟨S2048x16x4x1, .i32⟩
  | .hbm, ⟨34, _⟩ => ⟨S2048x16x4x1, .i1⟩
  | .hbm, ⟨35, _⟩ => ⟨S2048x16x4x1, .i1⟩
  | .hbm, ⟨36, _⟩ => ⟨S_, .i1⟩
  | .hbm, ⟨37, _⟩ => ⟨S2048x16x4, .i1⟩
  | .hbm, ⟨38, _⟩ => ⟨S2048x16x4, .f32⟩
  | .hbm, ⟨39, _⟩ => ⟨S_, .f32⟩
  | .hbm, ⟨40, _⟩ => ⟨S2048x16x4, .f32⟩
  | .hbm, ⟨41, _⟩ => ⟨S2048x16x4, .f32⟩
  | .hbm, ⟨42, _⟩ => ⟨S2048x1x4, .i1⟩
  | .hbm, ⟨43, _⟩ => ⟨S2048x1x4, .f32⟩
  | .hbm, ⟨44, _⟩ => ⟨S2048x16x4, .f32⟩
  | .hbm, ⟨45, _⟩ => ⟨S2048x16x4, .f32⟩
  | .hbm, ⟨46, _⟩ => ⟨S_, .f32⟩
  | .hbm, ⟨47, _⟩ => ⟨S2048x16x16, .f32⟩
  | .hbm, ⟨48, _⟩ => ⟨S2048x16x4, .f32⟩
  | .hbm, ⟨49, _⟩ => ⟨S_, .i32⟩
  | .hbm, ⟨50, _⟩ => ⟨S1, .i32⟩
  | .hbm, ⟨51, _⟩ => ⟨S2048x16x16, .f32⟩
  | .hbm, ⟨52, _⟩ => ⟨S2048x16x16, .f32⟩
  | .hbm, ⟨53, _⟩ => ⟨S2048x16x1, .i1⟩
  | .hbm, ⟨54, _⟩ => ⟨S2048x16x1, .f32⟩
  | .hbm, ⟨55, _⟩ => ⟨S2048x16x4, .f32⟩
  | .hbm, ⟨56, _⟩ => ⟨S2048x16x4, .f32⟩
  | .hbm, ⟨57, _⟩ => ⟨S2048x16x1x4, .f32⟩
  | .hbm, ⟨58, _⟩ => ⟨S2048x1x16x4, .f32⟩
  | .hbm, ⟨59, _⟩ => ⟨S2048x16x16x4, .f32⟩
  | .hbm, ⟨60, _⟩ => ⟨S2048x16x16x4, .f32⟩
  | .hbm, ⟨61, _⟩ => ⟨S2048x16x16x4, .f32⟩
  | .hbm, ⟨62, _⟩ => ⟨S2048x16x16x4, .f32⟩
  | .hbm, ⟨63, _⟩ => ⟨S_, .f32⟩
  | .hbm, ⟨64, _⟩ => ⟨S2048x16x16, .f32⟩
  | .hbm, ⟨65, _⟩ => ⟨S_, .f32⟩
  | .hbm, ⟨66, _⟩ => ⟨S2048x16x16, .f32⟩
  | .hbm, ⟨67, _⟩ => ⟨S2048x16x16, .f32⟩
  | .hbm, ⟨68, _⟩ => ⟨S_, .f32⟩
  | .hbm, ⟨69, _⟩ => ⟨S2048x16x16, .f32⟩
  | .hbm, ⟨70, _⟩ => ⟨S2048x16x16, .f32⟩
  | .hbm, ⟨71, _⟩ => ⟨S2048x16x16, .f32⟩
  | .hbm, ⟨72, _⟩ => ⟨S_, .f32⟩
  | .hbm, ⟨73, _⟩ => ⟨S2048x16x16, .f32⟩
  | .hbm, ⟨74, _⟩ => ⟨S2048x16x16, .f32⟩
  | .hbm, ⟨75, _⟩ => ⟨S2048x16x16, .f32⟩
  | .hbm, ⟨76, _⟩ => ⟨S16, .i32⟩
  | .hbm, ⟨77, _⟩ => ⟨S1x16, .i32⟩
  | .hbm, ⟨78, _⟩ => ⟨S2048x1, .i32⟩
  | .hbm, ⟨79, _⟩ => ⟨S2048x16, .i32⟩
  | .hbm, ⟨80, _⟩ => ⟨S2048x16, .i32⟩
  | .hbm, ⟨81, _⟩ => ⟨S2048x16, .i1⟩
  | .hbm, ⟨82, _⟩ => ⟨S2048x1x16, .i1⟩
  | .hbm, ⟨83, _⟩ => ⟨S_, .f32⟩
  | .hbm, ⟨84, _⟩ => ⟨S_, .f32⟩
  | .hbm, ⟨85, _⟩ => ⟨S2048x16x16, .i1⟩
  | .hbm, ⟨86, _⟩ => ⟨S2048x16x16, .f32⟩
  | .hbm, ⟨87, _⟩ => ⟨S2048x16x16, .f32⟩
  | .hbm, ⟨88, _⟩ => ⟨S2048x1, .i32⟩
  | .local _ .vmem, ⟨0, _⟩ => ⟨S16x16x2048, .f32⟩
  | .local _ .vmem, ⟨1, _⟩ => ⟨S16x16x2048, .f32⟩
  | .local _ .vmem, ⟨2, _⟩ => ⟨S16x16x2048, .f32⟩
  | .local _ .vmem, ⟨3, _⟩ => ⟨S16x16x2048, .f32⟩
  | .local _ .vmem, ⟨4, _⟩ => ⟨S16x16x16, .f32⟩
  | .local _ .vmem, ⟨5, _⟩ => ⟨S16x16x16, .f32⟩
  | _, _ => ⟨S2048x16x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst : Ref sig .tc := ⟨.hbm, 46, rfl⟩
abbrev main_v16 : Ref sig .tc := ⟨.hbm, 47, rfl⟩
abbrev main_v17 : Ref sig .tc := ⟨.hbm, 48, rfl⟩
abbrev main_c_2 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_3 : Ref sig .tc := ⟨.hbm, 63, rfl⟩
abbrev main_v31 : Ref sig .tc := ⟨.hbm, 64, rfl⟩
abbrev main_cst_4 : Ref sig .tc := ⟨.hbm, 65, rfl⟩
abbrev main_v32 : Ref sig .tc := ⟨.hbm, 66, rfl⟩
abbrev main_v33 : Ref sig .tc := ⟨.hbm, 67, rfl⟩
abbrev main_cst_5 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_6 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_7 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v47 : Ref sig .tc := ⟨.hbm, 87, rfl⟩
abbrev main_v48 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x16x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S2048x16 : S_.BroadcastsInDim S2048x16 (![] : Fin 0 → Fin S2048x16.rank)
  natLt_1_32 : 1 < 32
  reducesTo_S2048x16_S2048_d1 : S2048x16.ReducesTo [1] S2048
  h_S_ : 0 < S_.numel
  slices_S2048x16_S2048x4_0_0 : S2048x16.Slices ![0, 0] S2048x4
  bcast_S_S2048x4 : S_.BroadcastsInDim S2048x4 (![] : Fin 0 → Fin S2048x4.rank)
  bcast_S2048x4_S2048x1x4_0_2 : S2048x4.BroadcastsInDim S2048x1x4 (![0, 2] : Fin 2 → Fin S2048x1x4.rank)
  bcast_S2048x1x4_S2048x16x4_0_1_2 : S2048x1x4.BroadcastsInDim S2048x16x4 (![0, 1, 2] : Fin 3 → Fin S2048x16x4.rank)
  bcast_S_S2048x16x4 : S_.BroadcastsInDim S2048x16x4 (![] : Fin 0 → Fin S2048x16x4.rank)
  shapeCasts_S2048x16x4_S2048x16x4x1 : S2048x16x4.ShapeCasts S2048x16x4x1
  bcast_S_S2048x16x4x1 : S_.BroadcastsInDim S2048x16x4x1 (![] : Fin 0 → Fin S2048x16x4x1.rank)
  bcast_S1_S1x1x1x1_3 : S1.BroadcastsInDim S1x1x1x1 (![3] : Fin 1 → Fin S1x1x1x1.rank)
  bcast_S1x1x1x1_S2048x16x4x1_0_1_2_3 : S1x1x1x1.BroadcastsInDim S2048x16x4x1 (![0, 1, 2, 3] : Fin 4 → Fin S2048x16x4x1.rank)
  reducesTo_S2048x16x4x1_S2048x16x4_d3 : S2048x16x4x1.ReducesTo [3] S2048x16x4
  bcast_S_S2048x16x16 : S_.BroadcastsInDim S2048x16x16 (![] : Fin 0 → Fin S2048x16x16.rank)
  bcast_S_S1 : S_.BroadcastsInDim S1 (![] : Fin 0 → Fin S1.rank)
  inb_S16x16x2048_S16x16x2048_0_0_0 : ∀ a, (![0, 0, 0] : Fin 3 → Nat) a + S16x16x2048.size a ≤ S16x16x2048.size a
  h_S16x16x2048 : 0 < S16x16x2048.numel
  reduces_S16x16x2048_S16x16 : S16x16x2048.Reduces [2] S16x16
  shapeCasts_S16x16_S16x16x1 : S16x16.ShapeCasts S16x16x1
  shapeCasts_S16x16_S16x1x16 : S16x16.ShapeCasts S16x1x16
  bitsLt_bf16_f32 : FTy.bits .bf16 < FTy.bits .f32
  broadcasts_S16x16x1_S16x16x16 : S16x16x1.Broadcasts S16x16x16
  broadcasts_S16x1x16_S16x16x16 : S16x1x16.Broadcasts S16x16x16
  inb_S16x16x16_S16x16x16_0_0_0 : ∀ a, (![0, 0, 0] : Fin 3 → Nat) a + S16x16x16.size a ≤ S16x16x16.size a
  h_S16x16x16 : 0 < S16x16x16.numel
  bcast_S2048x16_S2048x16x1_0_1 : S2048x16.BroadcastsInDim S2048x16x1 (![0, 1] : Fin 2 → Fin S2048x16x1.rank)
  bcast_S2048x16x1_S2048x16x4_0_1_2 : S2048x16x1.BroadcastsInDim S2048x16x4 (![0, 1, 2] : Fin 3 → Fin S2048x16x4.rank)
  bcast_S2048x16x4_S2048x16x1x4_0_1_3 : S2048x16x4.BroadcastsInDim S2048x16x1x4 (![0, 1, 3] : Fin 3 → Fin S2048x16x1x4.rank)
  bcast_S2048x16x4_S2048x1x16x4_0_2_3 : S2048x16x4.BroadcastsInDim S2048x1x16x4 (![0, 2, 3] : Fin 3 → Fin S2048x1x16x4.rank)
  bcast_S2048x16x1x4_S2048x16x16x4_0_1_2_3 : S2048x16x1x4.BroadcastsInDim S2048x16x16x4 (![0, 1, 2, 3] : Fin 4 → Fin S2048x16x16x4.rank)
  bcast_S2048x1x16x4_S2048x16x16x4_0_1_2_3 : S2048x1x16x4.BroadcastsInDim S2048x16x16x4 (![0, 1, 2, 3] : Fin 4 → Fin S2048x16x16x4.rank)
  reducesTo_S2048x16x16x4_S2048x16x16_d3 : S2048x16x16x4.ReducesTo [3] S2048x16x16
  bcast_S16_S1x16_1 : S16.BroadcastsInDim S1x16 (![1] : Fin 1 → Fin S1x16.rank)
  bcast_S2048_S2048x1_0 : S2048.BroadcastsInDim S2048x1 (![0] : Fin 1 → Fin S2048x1.rank)
  bcast_S1x16_S2048x16_0_1 : S1x16.BroadcastsInDim S2048x16 (![0, 1] : Fin 2 → Fin S2048x16.rank)
  bcast_S2048x1_S2048x16_0_1 : S2048x1.BroadcastsInDim S2048x16 (![0, 1] : Fin 2 → Fin S2048x16.rank)
  bcast_S2048x16_S2048x1x16_0_2 : S2048x16.BroadcastsInDim S2048x1x16 (![0, 2] : Fin 2 → Fin S2048x1x16.rank)
  bcast_S2048x1x16_S2048x16x16_0_1_2 : S2048x1x16.BroadcastsInDim S2048x16x16 (![0, 1, 2] : Fin 3 → Fin S2048x16x16.rank)
  gather_S2048x16x5_S2048x16x4x1_S2048x16x4_n_2_01_01_2_3_111_wf : GatherDims.WF S2048x16x5 S2048x16x4x1 S2048x16x4 [] [2] [0, 1] [2] [0, 1] 3 ![1, 1, 1]
  scatter_S2048x16x16_S1_S2048x16x4_012_n_2_0_wf : ScatterDims.WF S2048x16x16 S1 S2048x16x4 [0, 1, 2] [] [2] 0
  dot_S16x16x2048_S16x16x2048_S16x16x16_2_2_1_1_0_0_wf : DotDims.WF S16x16x2048 S16x16x2048 S16x16x16 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x16x2048.size a ≤ S2048x16x2048.size a
  hwx0_0 : ∀ i : grid0.Coords, EltTy.bits .f32 = 32 ∨ (Rect.block (s := S2048x16x2048) S16x16x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x16x2048.size a ≤ S2048x16x2048.size a
  hwx0_1 : ∀ i : grid0.Coords, EltTy.bits .f32 = 32 ∨ (Rect.block (s := S2048x16x2048) S16x16x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x16x16.size a ≤ S2048x16x16.size a
  hwx0_2 : ∀ i : grid0.Coords, EltTy.bits .f32 = 32 ∨ (Rect.block (s := S2048x16x16) S16x16x16.size (cc0_transform_2 i) (hinb0_2 i)).WholeWords (EltTy.packing .f32)

variable [Facts₀]

def gather_S2048x16x5_S2048x16x4x1_S2048x16x4_n_2_01_01_2_3_111 : GatherDims S2048x16x5 S2048x16x4x1 S2048x16x4 where
  offsetDims := []
  collapsedSliceDims := [2]
  operandBatchingDims := [0, 1]
  startIndicesBatchingDims := [0, 1]
  startIndexMap := [2]
  indexVectorDim := 3
  sliceSizes := ![1, 1, 1]
  wf := gather_S2048x16x5_S2048x16x4x1_S2048x16x4_n_2_01_01_2_3_111_wf
def scatter_S2048x16x16_S1_S2048x16x4_012_n_2_0 : ScatterDims S2048x16x16 S1 S2048x16x4 where
  updateWindowDims := [0, 1, 2]
  insertedWindowDims := []
  scatterDimsToOperandDims := [2]
  indexVectorDim := 0
  wf := scatter_S2048x16x16_S1_S2048x16x4_012_n_2_0_wf
def dot_S16x16x2048_S16x16x2048_S16x16x16_2_2_1_1_0_0 : DotDims S16x16x2048 S16x16x2048 S16x16x16 where
  lhsContracting := [2]
  rhsContracting := [2]
  lhsNonContracting := [1]
  rhsNonContracting := [1]
  lhsBatch := [0]
  rhsBatch := [0]
  wf := dot_S16x16x2048_S16x16x2048_S16x16x16_2_2_1_1_0_0_wf

abbrev win0_0 : Pipeline.Window sig grid0 :=
  Pipeline.Window.ofSpec (Memref.whole main_arg1) S16x16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x16x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S16x16x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x16x5 : Shape := ⟨3, ![2048, 16, 5]⟩
abbrev S2048x16x2048 : Shape := ⟨3, ![2048, 16, 2048]⟩
abbrev S2048x16x4 : Shape := ⟨3, ![2048, 16, 4]⟩
abbrev S2048x16 : Shape := ⟨2, ![2048, 16]⟩
abbrev S_ : Shape := ⟨0, ![]⟩
abbrev S2048 : Shape := ⟨1, ![2048]⟩
abbrev S2048x4 : Shape := ⟨2, ![2048, 4]⟩
abbrev S2048x1x4 : Shape := ⟨3, ![2048, 1, 4]⟩
abbrev S2048x16x4x1 : Shape := ⟨4, ![2048, 16, 4, 1]⟩
abbrev S1 : Shape := ⟨1, ![1]⟩
abbrev S1x1x1x1 : Shape := ⟨4, ![1, 1, 1, 1]⟩
abbrev S2048x16x16 : Shape := ⟨3, ![2048, 16, 16]⟩
abbrev S2048x16x1 : Shape := ⟨3, ![2048, 16, 1]⟩
abbrev S2048x1x16 : Shape := ⟨3, ![2048, 1, 16]⟩
abbrev S2048x16x1x4 : Shape := ⟨4, ![2048, 16, 1, 4]⟩
abbrev S2048x1x16x4 : Shape := ⟨4, ![2048, 1, 16, 4]⟩
abbrev S2048x16x16x4 : Shape := ⟨4, ![2048, 16, 16, 4]⟩
abbrev S16 : Shape := ⟨1, ![16]⟩
abbrev S1x16 : Shape := ⟨2, ![1, 16]⟩
abbrev S2048x1 : Shape := ⟨2, ![2048, 1]⟩

abbrev nBuf : Space → Nat
  | .hbm => 188
  | .vmem => 0
  | .smem => 0
  | _ => 0

abbrev hbmTy0_0 (i : Nat) : BufTy := match i % 128 with
  | 0 => ⟨S2048x16x5, .f32⟩
  | 1 => ⟨S2048x16x2048, .f32⟩
  | 2 => ⟨S2048x16x2048, .f32⟩
  | 3 => ⟨S2048x16x4, .f32⟩
  | 4 => ⟨S2048x16x4, .f32⟩
  | 5 => ⟨S2048x16, .i32⟩
  | 6 => ⟨S_, .i32⟩
  | 7 => ⟨S2048x16, .i32⟩
  | 8 => ⟨S2048x16, .i1⟩
  | 9 => ⟨S2048x16, .i32⟩
  | 10 => ⟨S_, .i32⟩
  | 11 => ⟨S2048, .i32⟩
  | 12 => ⟨S2048x4, .i32⟩
  | 13 => ⟨S_, .i32⟩
  | 14 => ⟨S2048x4, .i32⟩
  | 15 => ⟨S2048x4, .i1⟩
  | 16 => ⟨S2048x4, .i32⟩
  | 17 => ⟨S2048x4, .i32⟩
  | 18 => ⟨S2048x1x4, .i32⟩
  | 19 => ⟨S2048x16x4, .i32⟩
  | 20 => ⟨S_, .i32⟩
  | 21 => ⟨S2048x16x4, .i32⟩
  | 22 => ⟨S2048x16x4, .i1⟩
  | 23 => ⟨S_, .i32⟩
  | 24 => ⟨S2048x16x4, .i32⟩
  | 25 => ⟨S2048x16x4, .i32⟩
  | 26 => ⟨S2048x16x4, .i32⟩
  | 27 => ⟨S2048x16x4x1, .i32⟩
  | 28 => ⟨S1, .i32⟩
  | 29 => ⟨S_, .i32⟩
  | 30 => ⟨S2048x16x4x1, .i32⟩
  | 31 => ⟨S2048x16x4x1, .i1⟩
  | 32 => ⟨S1x1x1x1, .i32⟩
  | 33 => ⟨S2048x16x4x1, .i32⟩
  | 34 => ⟨S2048x16x4x1, .i1⟩
  | 35 => ⟨S2048x16x4x1, .i1⟩
  | 36 => ⟨S_, .i1⟩
  | 37 => ⟨S2048x16x4, .i1⟩
  | 38 => ⟨S2048x16x4, .f32⟩
  | 39 => ⟨S_, .f32⟩
  | 40 => ⟨S2048x16x4, .f32⟩
  | 41 => ⟨S2048x16x4, .f32⟩
  | 42 => ⟨S2048x1x4, .i1⟩
  | 43 => ⟨S2048x1x4, .f32⟩
  | 44 => ⟨S2048x16x4, .f32⟩
  | 45 => ⟨S2048x16x4, .f32⟩
  | 46 => ⟨S_, .f32⟩
  | 47 => ⟨S2048x16x16, .f32⟩
  | 48 => ⟨S2048x16x4, .f32⟩
  | 49 => ⟨S_, .i32⟩
  | 50 => ⟨S1, .i32⟩
  | 51 => ⟨S2048x16x16, .f32⟩
  | 52 => ⟨S2048x16x2048, .f32⟩
  | 53 => ⟨S2048x16x2048, .f32⟩
  | 54 => ⟨S_, .f32⟩
  | 55 => ⟨S2048x16x2048, .f32⟩
  | 56 => ⟨S2048x16x2048, .f32⟩
  | 57 => ⟨S_, .f32⟩
  | 58 => ⟨S2048x16x2048, .f32⟩
  | 59 => ⟨S2048x16x2048, .f32⟩
  | 60 => ⟨S2048x16x16, .f32⟩
  | 61 => ⟨S_, .f32⟩
  | 62 => ⟨S2048x16x16, .f32⟩
  | 63 => ⟨S2048x16x16, .f32⟩
  | 64 => ⟨S_, .f32⟩
  | 65 => ⟨S2048x16, .f32⟩
  | 66 => ⟨S2048x16x1, .f32⟩
  | 67 => ⟨S_, .f32⟩
  | 68 => ⟨S2048x16, .f32⟩
  | 69 => ⟨S2048x1x16, .f32⟩
  | 70 => ⟨S2048x16x16, .f32⟩
  | 71 => ⟨S2048x16x16, .f32⟩
  | 72 => ⟨S2048x16x16, .f32⟩
  | 73 => ⟨S_, .f32⟩
  | 74 => ⟨S2048x16x16, .f32⟩
  | 75 => ⟨S2048x16x16, .f32⟩
  | 76 => ⟨S_, .f32⟩
  | 77 => ⟨S2048x16x16, .f32⟩
  | 78 => ⟨S2048x16x16, .f32⟩
  | 79 => ⟨S2048x16x16, .f32⟩
  | 80 => ⟨S_, .f32⟩
  | 81 => ⟨S2048x16x16, .f32⟩
  | 82 => ⟨S2048x16x16, .f32⟩
  | 83 => ⟨S2048x16x2048, .f32⟩
  | 84 => ⟨S_, .f32⟩
  | 85 => ⟨S2048x16x2048, .f32⟩
  | 86 => ⟨S2048x16x2048, .f32⟩
  | 87 => ⟨S2048x16x2048, .f32⟩
  | 88 => ⟨S2048x16x2048, .f32⟩
  | 89 => ⟨S2048x16x2048, .i1⟩
  | 90 => ⟨S2048x16x2048, .f32⟩
  | 91 => ⟨S2048x16x2048, .f32⟩
  | 92 => ⟨S2048x16x2048, .f32⟩
  | 93 => ⟨S2048x16x2048, .f32⟩
  | 94 => ⟨S2048x16x2048, .f32⟩
  | 95 => ⟨S2048x16x2048, .f32⟩
  | 96 => ⟨S2048x16x2048, .f32⟩
  | 97 => ⟨S2048x16x2048, .f32⟩
  | 98 => ⟨S_, .f32⟩
  | 99 => ⟨S2048x16x2048, .f32⟩
  | 100 => ⟨S2048x16x2048, .f32⟩
  | 101 => ⟨S2048x16x2048, .f32⟩
  | 102 => ⟨S2048x16x2048, .f32⟩
  | 103 => ⟨S2048x16x2048, .i1⟩
  | 104 => ⟨S2048x16x2048, .f32⟩
  | 105 => ⟨S2048x16x2048, .f32⟩
  | 106 => ⟨S2048x16x2048, .f32⟩
  | 107 => ⟨S2048x16x2048, .f32⟩
  | 108 => ⟨S2048x16x2048, .f32⟩
  | 109 => ⟨S2048x16x2048, .f32⟩
  | 110 => ⟨S2048x16x2048, .f32⟩
  | 111 => ⟨S2048x16x2048, .f32⟩
  | 112 => ⟨S2048x16x16, .f32⟩
  | 113 => ⟨S_, .f32⟩
  | 114 => ⟨S2048x16x2048, .f32⟩
  | 115 => ⟨S2048x16x2048, .f32⟩
  | 116 => ⟨S2048x16x16, .f32⟩
  | 117 => ⟨S2048x16x16, .f32⟩
  | 118 => ⟨S_, .f32⟩
  | 119 => ⟨S2048x16x16, .f32⟩
  | 120 => ⟨S2048x16x16, .f32⟩
  | 121 => ⟨S_, .f32⟩
  | 122 => ⟨S2048x16x2048, .f32⟩
  | 123 => ⟨S2048x16x2048, .f32⟩
  | 124 => ⟨S_, .f32⟩
  | 125 => ⟨S2048x16x2048, .f32⟩
  | 126 => ⟨S2048x16x2048, .f32⟩
  | 127 => ⟨S2048x16x2048, .f32⟩
  | _ => ⟨S2048x16x5, .f32⟩

abbrev hbmTy0_1 (i : Nat) : BufTy := match i % 128 with
  | 0 => ⟨S_, .f32⟩
  | 1 => ⟨S2048x16x2048, .f32⟩
  | 2 => ⟨S2048x16x2048, .f32⟩
  | 3 => ⟨S2048x16x2048, .f32⟩
  | 4 => ⟨S2048x16x16, .f32⟩
  | 5 => ⟨S_, .f32⟩
  | 6 => ⟨S2048x16x2048, .f32⟩
  | 7 => ⟨S2048x16x2048, .f32⟩
  | 8 => ⟨S2048x16x16, .f32⟩
  | 9 => ⟨S2048x16x16, .f32⟩
  | 10 => ⟨S_, .f32⟩
  | 11 => ⟨S2048x16x16, .f32⟩
  | 12 => ⟨S2048x16x16, .f32⟩
  | 13 => ⟨S2048x16x1, .i1⟩
  | 14 => ⟨S2048x16x1, .f32⟩
  | 15 => ⟨S2048x16x4, .f32⟩
  | 16 => ⟨S2048x16x4, .f32⟩
  | 17 => ⟨S2048x16x1x4, .f32⟩
  | 18 => ⟨S2048x1x16x4, .f32⟩
  | 19 => ⟨S2048x16x16x4, .f32⟩
  | 20 => ⟨S2048x16x16x4, .f32⟩
  | 21 => ⟨S2048x16x16x4, .f32⟩
  | 22 => ⟨S2048x16x16x4, .f32⟩
  | 23 => ⟨S_, .f32⟩
  | 24 => ⟨S2048x16x16, .f32⟩
  | 25 => ⟨S_, .f32⟩
  | 26 => ⟨S2048x16x16, .f32⟩
  | 27 => ⟨S2048x16x16, .f32⟩
  | 28 => ⟨S_, .f32⟩
  | 29 => ⟨S2048x16x16, .f32⟩
  | 30 => ⟨S2048x16x16, .f32⟩
  | 31 => ⟨S_, .f32⟩
  | 32 => ⟨S2048x16x16, .f32⟩
  | 33 => ⟨S2048x16x16, .f32⟩
  | 34 => ⟨S2048x16x16, .f32⟩
  | 35 => ⟨S_, .f32⟩
  | 36 => ⟨S2048x16x16, .f32⟩
  | 37 => ⟨S2048x16x16, .f32⟩
  | 38 => ⟨S2048x16x16, .f32⟩
  | 39 => ⟨S_, .f32⟩
  | 40 => ⟨S2048x16x16, .f32⟩
  | 41 => ⟨S2048x16x16, .f32⟩
  | 42 => ⟨S2048x16x16, .f32⟩
  | 43 => ⟨S_, .f32⟩
  | 44 => ⟨S2048x16x16, .f32⟩
  | 45 => ⟨S2048x16x16, .f32⟩
  | 46 => ⟨S2048x16x16, .f32⟩
  | 47 => ⟨S16, .i32⟩
  | 48 => ⟨S1x16, .i32⟩
  | 49 => ⟨S2048x1, .i32⟩
  | 50 => ⟨S2048x16, .i32⟩
  | 51 => ⟨S2048x16, .i32⟩
  | 52 => ⟨S2048x16, .i1⟩
  | 53 => ⟨S2048x1x16, .i1⟩
  | 54 => ⟨S_, .f32⟩
  | 55 => ⟨S_, .f32⟩
  | 56 => ⟨S2048x16x16, .i1⟩
  | 57 => ⟨S2048x16x16, .f32⟩
  | 58 => ⟨S2048x16x16, .f32⟩
  | 59 => ⟨S2048x1, .i32⟩
  | _ => ⟨S2048x16x5, .f32⟩

abbrev hbmTy (i : Nat) : BufTy := match i / 128 with
  | 0 => hbmTy0_0 i
  | 1 => hbmTy0_1 i
  | _ => ⟨S2048x16x5, .f32⟩

abbrev bufTy : (tb : Table) → Fin (tcTables nBuf tb) → BufTy
  | .hbm, ⟨i, _⟩ => hbmTy i
  | _, _ => ⟨S2048x16x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst : Ref sig .tc := ⟨.hbm, 46, rfl⟩
abbrev main_v16 : Ref sig .tc := ⟨.hbm, 47, rfl⟩
abbrev main_v17 : Ref sig .tc := ⟨.hbm, 48, rfl⟩
abbrev main_c_2 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_5 : Ref sig .tc := ⟨.hbm, 61, rfl⟩
abbrev main_v27 : Ref sig .tc := ⟨.hbm, 62, rfl⟩
abbrev main_v28 : Ref sig .tc := ⟨.hbm, 63, rfl⟩
abbrev main_cst_6 : Ref sig .tc := ⟨.hbm, 64, rfl⟩
abbrev main_v29 : Ref sig .tc := ⟨.hbm, 65, rfl⟩
abbrev main_v30 : Ref sig .tc := ⟨.hbm, 66, rfl⟩
abbrev main_cst_7 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_8 : Ref sig .tc := ⟨.hbm, 73, rfl⟩
abbrev main_v36 : Ref sig .tc := ⟨.hbm, 74, rfl⟩
abbrev main_v37 : Ref sig .tc := ⟨.hbm, 75, rfl⟩
abbrev main_cst_9 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_10 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_v44 : Ref sig .tc := ⟨.hbm, 97, rfl⟩
abbrev main_call2_cst : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_v6 : Ref sig .tc := ⟨.hbm, 105, rfl⟩
abbrev main_call2_v7 : Ref sig .tc := ⟨.hbm, 106, rfl⟩
abbrev main_call2_v8 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_v45 : Ref sig .tc := ⟨.hbm, 111, rfl⟩
abbrev main_v46 : Ref sig .tc := ⟨.hbm, 112, rfl⟩
abbrev main_cst_11 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_cst_12 : Ref sig .tc := ⟨.hbm, 118, rfl⟩
abbrev main_v51 : Ref sig .tc := ⟨.hbm, 119, rfl⟩
abbrev main_v52 : Ref sig .tc := ⟨.hbm, 120, rfl⟩
abbrev main_cst_13 : Ref sig .tc := ⟨.hbm, 121, rfl⟩
abbrev main_v53 : Ref sig .tc := ⟨.hbm, 122, rfl⟩
abbrev main_v54 : Ref sig .tc := ⟨.hbm, 123, rfl⟩
abbrev main_cst_14 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_cst_15 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_cst_16 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_cst_17 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_cst_18 : Ref sig .tc := ⟨.hbm, 151, rfl⟩
abbrev main_v78 : Ref sig .tc := ⟨.hbm, 152, rfl⟩
abbrev main_cst_19 : Ref sig .tc := ⟨.hbm, 153, rfl⟩
abbrev main_v79 : Ref sig .tc := ⟨.hbm, 154, rfl⟩
abbrev main_v80 : Ref sig .tc := ⟨.hbm, 155, rfl⟩
abbrev main_cst_20 : Ref sig .tc := ⟨.hbm, 156, rfl⟩
abbrev main_v81 : Ref sig .tc := ⟨.hbm, 157, rfl⟩
abbrev main_v82 : Ref sig .tc := ⟨.hbm, 158, rfl⟩
abbrev main_cst_21 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_cst_22 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_cst_23 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_cst_24 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_cst_25 : Ref sig .tc := ⟨.hbm, 182, rfl⟩
abbrev main_call3_v0 : Ref sig .tc := ⟨.hbm, 183, rfl⟩
abbrev main_call3_v1 : Ref sig .tc := ⟨.hbm, 184, rfl⟩
abbrev main_call3_v2 : Ref sig .tc := ⟨.hbm, 185, rfl⟩
abbrev main_v102 : Ref sig .tc := ⟨.hbm, 186, rfl⟩
abbrev main_v103 : Ref sig .tc := ⟨.hbm, 187, rfl⟩

abbrev nD : Nat := 1
abbrev τ : Topo := Topo.v7x

variable {F : FTy → Type} [FloatOps F]

class Facts₀ : Prop where
  bcast_S_S2048x16 : S_.BroadcastsInDim S2048x16 (![] : Fin 0 → Fin S2048x16.rank)
  natLt_1_32 : 1 < 32
  reducesTo_S2048x16_S2048_d1 : S2048x16.ReducesTo [1] S2048
  h_S_ : 0 < S_.numel
  slices_S2048x16_S2048x4_0_0 : S2048x16.Slices ![0, 0] S2048x4
  bcast_S_S2048x4 : S_.BroadcastsInDim S2048x4 (![] : Fin 0 → Fin S2048x4.rank)
  bcast_S2048x4_S2048x1x4_0_2 : S2048x4.BroadcastsInDim S2048x1x4 (![0, 2] : Fin 2 → Fin S2048x1x4.rank)
  bcast_S2048x1x4_S2048x16x4_0_1_2 : S2048x1x4.BroadcastsInDim S2048x16x4 (![0, 1, 2] : Fin 3 → Fin S2048x16x4.rank)
  bcast_S_S2048x16x4 : S_.BroadcastsInDim S2048x16x4 (![] : Fin 0 → Fin S2048x16x4.rank)
  shapeCasts_S2048x16x4_S2048x16x4x1 : S2048x16x4.ShapeCasts S2048x16x4x1
  bcast_S_S2048x16x4x1 : S_.BroadcastsInDim S2048x16x4x1 (![] : Fin 0 → Fin S2048x16x4x1.rank)
  bcast_S1_S1x1x1x1_3 : S1.BroadcastsInDim S1x1x1x1 (![3] : Fin 1 → Fin S1x1x1x1.rank)
  bcast_S1x1x1x1_S2048x16x4x1_0_1_2_3 : S1x1x1x1.BroadcastsInDim S2048x16x4x1 (![0, 1, 2, 3] : Fin 4 → Fin S2048x16x4x1.rank)
  reducesTo_S2048x16x4x1_S2048x16x4_d3 : S2048x16x4x1.ReducesTo [3] S2048x16x4
  bcast_S_S2048x16x16 : S_.BroadcastsInDim S2048x16x16 (![] : Fin 0 → Fin S2048x16x16.rank)
  bcast_S_S1 : S_.BroadcastsInDim S1 (![] : Fin 0 → Fin S1.rank)
  bcast_S_S2048x16x2048 : S_.BroadcastsInDim S2048x16x2048 (![] : Fin 0 → Fin S2048x16x2048.rank)
  reducesTo_S2048x16x2048_S2048x16_d2 : S2048x16x2048.ReducesTo [2] S2048x16
  bcast_S2048x16_S2048x16x1_0_1 : S2048x16.BroadcastsInDim S2048x16x1 (![0, 1] : Fin 2 → Fin S2048x16x1.rank)
  bcast_S2048x16_S2048x1x16_0_2 : S2048x16.BroadcastsInDim S2048x1x16 (![0, 2] : Fin 2 → Fin S2048x1x16.rank)
  bcast_S2048x16x1_S2048x16x16_0_1_2 : S2048x16x1.BroadcastsInDim S2048x16x16 (![0, 1, 2] : Fin 3 → Fin S2048x16x16.rank)
  bcast_S2048x1x16_S2048x16x16_0_1_2 : S2048x1x16.BroadcastsInDim S2048x16x16 (![0, 1, 2] : Fin 3 → Fin S2048x16x16.rank)
  bcast_S2048x16x1_S2048x16x4_0_1_2 : S2048x16x1.BroadcastsInDim S2048x16x4 (![0, 1, 2] : Fin 3 → Fin S2048x16x4.rank)
  bcast_S2048x16x4_S2048x16x1x4_0_1_3 : S2048x16x4.BroadcastsInDim S2048x16x1x4 (![0, 1, 3] : Fin 3 → Fin S2048x16x1x4.rank)
  bcast_S2048x16x4_S2048x1x16x4_0_2_3 : S2048x16x4.BroadcastsInDim S2048x1x16x4 (![0, 2, 3] : Fin 3 → Fin S2048x1x16x4.rank)
  bcast_S2048x16x1x4_S2048x16x16x4_0_1_2_3 : S2048x16x1x4.BroadcastsInDim S2048x16x16x4 (![0, 1, 2, 3] : Fin 4 → Fin S2048x16x16x4.rank)
  bcast_S2048x1x16x4_S2048x16x16x4_0_1_2_3 : S2048x1x16x4.BroadcastsInDim S2048x16x16x4 (![0, 1, 2, 3] : Fin 4 → Fin S2048x16x16x4.rank)
  reducesTo_S2048x16x16x4_S2048x16x16_d3 : S2048x16x16x4.ReducesTo [3] S2048x16x16
  bcast_S16_S1x16_1 : S16.BroadcastsInDim S1x16 (![1] : Fin 1 → Fin S1x16.rank)
  bcast_S2048_S2048x1_0 : S2048.BroadcastsInDim S2048x1 (![0] : Fin 1 → Fin S2048x1.rank)
  bcast_S1x16_S2048x16_0_1 : S1x16.BroadcastsInDim S2048x16 (![0, 1] : Fin 2 → Fin S2048x16.rank)
  bcast_S2048x1_S2048x16_0_1 : S2048x1.BroadcastsInDim S2048x16 (![0, 1] : Fin 2 → Fin S2048x16.rank)
  gather_S2048x16x5_S2048x16x4x1_S2048x16x4_n_2_01_01_2_3_111_wf : GatherDims.WF S2048x16x5 S2048x16x4x1 S2048x16x4 [] [2] [0, 1] [2] [0, 1] 3 ![1, 1, 1]
  scatter_S2048x16x16_S1_S2048x16x4_012_n_2_0_wf : ScatterDims.WF S2048x16x16 S1 S2048x16x4 [0, 1, 2] [] [2] 0
  dot_S2048x16x2048_S2048x16x2048_S2048x16x16_2_2_1_1_0_0_wf : DotDims.WF S2048x16x2048 S2048x16x2048 S2048x16x16 [2] [2] [1] [1] [0] [0]

variable [Facts₀]

def gather_S2048x16x5_S2048x16x4x1_S2048x16x4_n_2_01_01_2_3_111 : GatherDims S2048x16x5 S2048x16x4x1 S2048x16x4 where
  offsetDims := []
  collapsedSliceDims := [2]
  operandBatchingDims := [0, 1]
  startIndicesBatchingDims := [0, 1]
  startIndexMap := [2]
  indexVectorDim := 3
  sliceSizes := ![1, 1, 1]
  wf := gather_S2048x16x5_S2048x16x4x1_S2048x16x4_n_2_01_01_2_3_111_wf
def scatter_S2048x16x16_S1_S2048x16x4_012_n_2_0 : ScatterDims S2048x16x16 S1 S2048x16x4 where
  updateWindowDims := [0, 1, 2]
  insertedWindowDims := []
  scatterDimsToOperandDims := [2]
  indexVectorDim := 0
  wf := scatter_S2048x16x16_S1_S2048x16x4_012_n_2_0_wf
def dot_S2048x16x2048_S2048x16x2048_S2048x16x16_2_2_1_1_0_0 : DotDims S2048x16x2048 S2048x16x2048 S2048x16x16 where
  lhsContracting := [2]
  rhsContracting := [2]
  lhsNonContracting := [1]
  rhsNonContracting := [1]
  lhsBatch := [0]
  rhsBatch := [0]
  wf := dot_S2048x16x2048_S2048x16x2048_S2048x16x16_2_2_1_1_0_0_wf

class Facts : Prop extends Facts₀ where

variable [Facts]
-- ==== Proof.Scalars.lean ====
/-
  The scalar side of the mask cost: every element-wise step of the two programs, read at the ideal
  values as one function on the extended reals, and the few identities by which the kernel's spelling
  of a step and the reference's spelling of it are the same function.

  * the sigmoid is a real number at every extended real (0 at -inf, 1 at +inf), so a power with the
    exponent 2 of it, or of one minus it, is its product with itself;
  * a test "x differs from x" never holds on a linear order, so the select guarding the softplus
    always takes the branch  max(x, 0) + log(1 + exp(-|x|));
  * 0 - x is -x, x - 0 is x, and the unit weights are the real 1.
-/
import Idealize.ShloMosaic.PureOps.Ideal
import Idealize.ShloMosaic.PureOps.Ideal.Laws
import Idealize.ShloMosaic.Lib.ValueIdx

noncomputable section

namespace Cert.Scalars

open Idealize.ShloMosaic

/-- The word of 1.0 is the real 1. -/
theorem ofBits_one : Ideal.ofBits .f32 0x3F800000#32 = 1 := by
  simp [Ideal.ofBits, Ideal.ieee, -EReal.coe_mul]; norm_num

/-- The word of 2.0 is the real 2. -/
theorem ofBits_two : Ideal.ofBits .f32 0x40000000#32 = ((2 : ℝ) : EReal) := by
  simp [Ideal.ofBits, Ideal.ieee, -EReal.coe_mul]; norm_num

/-- The sigmoid is a real number at every extended real. -/
theorem logistic_real (x : EReal) : ∃ r : ℝ, Ideal.logistic x = (r : EReal) := by
  induction x using EReal.rec with
  | bot => exact ⟨0, by simp⟩
  | top => exact ⟨1, by simp⟩
  | coe r => exact ⟨_, Ideal.logistic_coe r⟩

/-- A real number to the power 2.0 is its square. -/
theorem pow_two_coe (r : ℝ) : Ideal.pow (r : EReal) (Ideal.ofBits .f32 0x40000000#32) = (r : EReal) * (r : EReal) := by
  rw [ofBits_two, Ideal.pow_coe_coe, ← EReal.coe_mul]
  congr 1
  show r ^ (2 : ℝ) = r * r
  rw [Real.rpow_two, sq]

/-- The sigmoid to the power 2.0 is its square. -/
theorem pow_two_logistic (x : EReal) :
    Ideal.pow (Ideal.logistic x) (Ideal.ofBits .f32 0x40000000#32) = Ideal.logistic x * Ideal.logistic x := by
  obtain ⟨r, hr⟩ := logistic_real x
  rw [hr, pow_two_coe]

/-- One minus the sigmoid, to the power 2.0, is its square. -/
theorem pow_two_one_sub_logistic (x : EReal) :
    Ideal.pow (Ideal.ofBits .f32 0x3F800000#32 - Ideal.logistic x) (Ideal.ofBits .f32 0x40000000#32)
      = (Ideal.ofBits .f32 0x3F800000#32 - Ideal.logistic x) * (Ideal.ofBits .f32 0x3F800000#32 - Ideal.logistic x) := by
  obtain ⟨r, hr⟩ := logistic_real x
  have h : Ideal.ofBits .f32 0x3F800000#32 - Ideal.logistic x = ((1 - r : ℝ) : EReal) := by
    rw [hr, ofBits_one, ← EReal.coe_one, ← EReal.coe_sub]
  rw [h, pow_two_coe]

/-- The softplus, as both programs reach it: max(x, 0) + log(1 + exp(-|x|)). -/
def softplus (x : EReal) : EReal := max x 0 + Ideal.log1p (Ideal.exp (-(max x (-x))))

/-- The kernel's spelling of the softplus of an element (a guarded sum; negation written 0 - _). -/
def softplusK (x : EReal) : EReal :=
  Scalar.select (Ideal.cmp .one (x - Ideal.ofBits .f32 0x00000000#32) (x - Ideal.ofBits .f32 0x00000000#32))
    (x + Ideal.ofBits .f32 0x00000000#32)
    (max x (Ideal.ofBits .f32 0x00000000#32)
      + Ideal.log1p (Ideal.exp (Ideal.ofBits .f32 0x00000000#32
          - max (x - Ideal.ofBits .f32 0x00000000#32) (-(x - Ideal.ofBits .f32 0x00000000#32)))))

/-- The reference's spelling of it. -/
def softplusR (x : EReal) : EReal :=
  Scalar.select (Ideal.cmp .une (x - Ideal.ofBits .f32 0x00000000#32) (x - Ideal.ofBits .f32 0x00000000#32))
    (x + Ideal.ofBits .f32 0x00000000#32)
    (max x (Ideal.ofBits .f32 0x00000000#32)
      + Ideal.log1p (Ideal.exp (-(max (x - Ideal.ofBits .f32 0x00000000#32) (-(x - Ideal.ofBits .f32 0x00000000#32))))))

theorem zero_sub' (a : EReal) : (0 : EReal) - a = -a := by rw [sub_eq_add_neg, zero_add]

theorem softplusK_eq (x : EReal) : softplusK x = softplus x := by
  unfold softplusK softplus
  have hc : Ideal.cmp .one (x - Ideal.ofBits .f32 0x00000000#32) (x - Ideal.ofBits .f32 0x00000000#32) = 0#1 := by
    simp [Ideal.cmp]
  rw [hc, ValueIdx.select_zero, Ideal.ofBits_zero_f32, sub_zero, zero_sub']

theorem softplusR_eq (x : EReal) : softplusR x = softplus x := by
  unfold softplusR softplus
  have hc : Ideal.cmp .une (x - Ideal.ofBits .f32 0x00000000#32) (x - Ideal.ofBits .f32 0x00000000#32) = 0#1 := by
    simp [Ideal.cmp]
  rw [hc, ValueIdx.select_zero, Ideal.ofBits_zero_f32, sub_zero]

end Cert.Scalars

end
-- ==== Proof.Spec.lean ====
/-
  The mask cost as one formula.  For a batch element b, a prediction row n and a target row m, with
  P l = sigmoid(x[b,n,l]) and T l = y[b,m,l] over the L positions l:

    dice  = 1 - (2 * sum_l P l * T l + 1) / ((sum_l P l + sum_l T l) + 1)
    ce    = (sum_l softplus(-x[b,n,l]) * T l + sum_l softplus(x[b,n,l]) * (1 - T l)) / L
    focal = (sum_l ((1 - P l)^2 * softplus(-x[b,n,l])) * T l + sum_l (P l ^2 * softplus(x[b,n,l])) * (1 - T l)) / L

  and the cost is (dice + ce) + focal.  The constants 1, 2 and L = 2048 stay the binary32 words the
  programs spell; squares are written as products.  The formula reads x only in row (b, n) and y only
  in row (b, m), so on a block of batch elements cut out of the arrays it is the formula of the arrays
  at the block's batch elements (maskCost_congr).
-/
import Idealize.ShloMosaic.PureOps.Ideal
import Idealize.ShloMosaic.Lib.ValueIdx
import proofs.«122681_j57569741635899_1_alg».proof.Proof.Scalars

noncomputable section

namespace Cert.Spec

open Idealize.ShloMosaic Idealize.ShloMosaic.ValueIdx Cert.Scalars

/-- The words of 1.0, 2.0 and 2048.0 at the ideal values. -/
abbrev w1 : EReal := Ideal.ofBits .f32 0x3F800000#32
abbrev w2 : EReal := Ideal.ofBits .f32 0x40000000#32
abbrev wL : EReal := Ideal.ofBits .f32 0x45000000#32

variable {B N L : Nat}

/-- The dice term. -/
def dice (x y : (⟨3, ![B, N, L]⟩ : Shape).Idx → EReal) (b : Fin B) (n m : Fin N) : EReal :=
  w1 - Ideal.div (w2 * (∑ l : Fin L, Ideal.logistic (x (ix3 b n l)) * y (ix3 b m l)) + w1)
    (((∑ l : Fin L, Ideal.logistic (x (ix3 b n l))) + (∑ l : Fin L, y (ix3 b m l))) + w1)

/-- The cross-entropy term. -/
def ce (x y : (⟨3, ![B, N, L]⟩ : Shape).Idx → EReal) (b : Fin B) (n m : Fin N) : EReal :=
  Ideal.div ((∑ l : Fin L, softplus (-(x (ix3 b n l))) * y (ix3 b m l))
    + (∑ l : Fin L, softplus (x (ix3 b n l)) * (w1 - y (ix3 b m l)))) wL

/-- The focal term. -/
def focal (x y : (⟨3, ![B, N, L]⟩ : Shape).Idx → EReal) (b : Fin B) (n m : Fin N) : EReal :=
  Ideal.div ((∑ l : Fin L, (((w1 - Ideal.logistic (x (ix3 b n l))) * (w1 - Ideal.logistic (x (ix3 b n l))))
        * softplus (-(x (ix3 b n l)))) * y (ix3 b m l))
    + (∑ l : Fin L, ((Ideal.logistic (x (ix3 b n l)) * Ideal.logistic (x (ix3 b n l))) * softplus (x (ix3 b n l)))
        * (w1 - y (ix3 b m l)))) wL

/-- The mask cost of prediction row n against target row m of batch element b. -/
def maskCost (x y : (⟨3, ![B, N, L]⟩ : Shape).Idx → EReal) (b : Fin B) (n m : Fin N) : EReal :=
  (dice x y b n m + ce x y b n m) + focal x y b n m

/-- The cost of (b, n, m) reads x in row (b, n) and y in row (b, m) only: two pairs of arrays that agree
    there, at batch elements b and b', have the same cost. -/
theorem maskCost_congr {B' : Nat} (x y : (⟨3, ![B, N, L]⟩ : Shape).Idx → EReal)
    (x' y' : (⟨3, ![B', N, L]⟩ : Shape).Idx → EReal) (b : Fin B) (b' : Fin B') (n m : Fin N)
    (hx : ∀ l, x (ix3 b n l) = x' (ix3 b' n l)) (hy : ∀ l, y (ix3 b m l) = y' (ix3 b' m l)) :
    maskCost x y b n m = maskCost x' y' b' n m := by
  unfold maskCost dice ce focal
  simp only [hx, hy]

end Cert.Spec

end
-- ==== Proof.LibRank3.lean ====
/-
  Rank-3 vectors read at an index given by coordinates.  General facts, over arbitrary extents a, b, c
  and any element type, about the layout operations that move between a matrix and a rank-3 vector with
  a unit axis, and about a sum over the last axis:

    * an [a, b] vector cast to [a, b, 1] reads, at (p, q, u), the vector at (p, q);
    * an [a, c] vector cast to [a, 1, c] reads, at (p, u, r), the vector at (p, r);
    * an [a, b, 1] vector broadcast to [a, b, c] reads, at (p, q, r), the vector at (p, q, 0);
    * an [a, 1, c] vector broadcast to [a, b, c] reads, at (p, q, r), the vector at (p, 0, r);
    * at the ideal values, the sum over axis 2 of an [a, b, c] vector reads, at (p, q), the sum over
      k < c of the vector at (p, q, k).
-/
import Idealize.ShloMosaic.Lib.ValueLayout
import Idealize.ShloMosaic.PureOps.Ideal.Laws

namespace Cert.LibRank3

open Idealize.ShloMosaic Idealize.ShloMosaic.ValueIdx

variable {α : Type}

/-- An `[a, b]` vector cast to `[a, b, 1]` reads, at `(p, q, u)`, the operand at `(p, q)`: the two indices have
    the same row-major position, the unit coordinate `u` being `0`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, c]` vector cast to `[a, 1, c]` reads, at `(p, u, r)`, the operand at `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- An `[a, b, 1]` vector broadcast to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, 1, c]` vector broadcast to `[a, b, c]` reads, at `(p, q, r)`, the operand at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- At the ideal values the sum over axis 2 of an `[a, b, c]` vector reads, at `(p, q)`, the sum over `k < c` of the
    vector at `(p, q, k)`: the source index over `(p, q)` with `k` inserted on the dropped axis is `(p, q, k)`. -/
theorem multiReduction_add_axis2_apply {a b c : ℕ} {φ : FTy} (v : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction (F := Ideal) .add [2] ⟨2, ![a, b]⟩ v acc h hφ hacc (ix2 p q) = ∑ k : Fin c, v (ix3 p q k) := by
  refine (Ideal.multiReduction_add_single v acc h hφ hacc (ix2 p q)).trans ?_
  refine Finset.sum_congr rfl fun k _ => congrArg v (funext fun ax => Fin.ext ?_)
  match ax with
  | ⟨0, _⟩ => rfl
  | ⟨1, _⟩ => rfl
  | ⟨2, _⟩ => rfl

end Cert.LibRank3
-- ==== Proof.KernelBlock.lean ====
/-
  The kernel's body, read at one index of the block it stores.

  The body loads a block x0 of logits and a block x1 of targets, both [16, 16, 2048], and stores a
  [16, 16, 16] block.  Element-wise it forms the sigmoid of the logits, the softplus of the logits and of
  their negations, the two focal weights, and the complement of the targets; it sums the sigmoids and the
  targets over the 2048 positions; and it takes five batched products that contract the position axis:
  the entry (bb, n, m) of such a product is the sum over k of the left operand at (bb, n, k) times the
  right operand at (bb, m, k).  From these it forms the dice, cross-entropy and focal terms.

  This file reads each of those operations at an index given by coordinates and concludes that the stored
  value at (bb, n, m) is the mask cost (Spec.maskCost) of prediction row n against target row m of the
  block's batch element bb.  The narrowing of the products' operands to sixteen bits is the identity at
  the ideal values, and the products accumulate into zero, so each is the bare sum.
-/
import Idealize.ShloMosaic.Lib.ValueLayout
import Idealize.ShloMosaic.PureOps.Ideal.Laws
import proofs.«122681_j57569741635899_1_alg».proof.Proof.Gen.KernelIdeal.Skeleton
import proofs.«122681_j57569741635899_1_alg».proof.Proof.Scalars
import proofs.«122681_j57569741635899_1_alg».proof.Proof.Spec
import proofs.«122681_j57569741635899_1_alg».proof.Proof.LibRank3

noncomputable section

namespace Cert.KernelBlock

open Cert.KernelIdeal Cert.KernelIdeal.Gen Idealize.ShloMosaic Idealize.ShloMosaic.ValueIdx

/-! ## The contraction: batch axis 0, the operands' axis 2 contracted -/

/-- The contraction shape has one axis … -/
theorem contr_rank : dot_S16x16x2048_S16x16x2048_S16x16x16_2_2_1_1_0_0.contr.rank = 1 := rfl
/-- … of extent 2048. -/
theorem contr_size : dot_S16x16x2048_S16x16x2048_S16x16x16_2_2_1_1_0_0.contr.size ⟨0, by rw [contr_rank]; exact Nat.one_pos⟩ = 2048 := rfl

/-- The left operand's index at output index `j`: the batch coordinate on axis 0 … -/
theorem lhsIdx_0 (j : S16x16x16.Idx) (q : dot_S16x16x2048_S16x16x2048_S16x16x16_2_2_1_1_0_0.contr.Idx) :
    (dot_S16x16x2048_S16x16x2048_S16x16x16_2_2_1_1_0_0.lhsIdx j q 0).val = (j 0).val := by
  unfold DotDims.lhsIdx
  rw [dif_pos (show (0 : Fin S16x16x2048.rank) ∈ dot_S16x16x2048_S16x16x2048_S16x16x16_2_2_1_1_0_0.lhsBatch by decide)]
  rfl
/-- … the output's row on axis 1 … -/
theorem lhsIdx_1 (j : S16x16x16.Idx) (q : dot_S16x16x2048_S16x16x2048_S16x16x16_2_2_1_1_0_0.contr.Idx) :
    (dot_S16x16x2048_S16x16x2048_S16x16x16_2_2_1_1_0_0.lhsIdx j q 1).val = (j 1).val := by
  unfold DotDims.lhsIdx
  rw [dif_neg (show ¬ (1 : Fin S16x16x2048.rank) ∈ dot_S16x16x2048_S16x16x2048_S16x16x16_2_2_1_1_0_0.lhsBatch by decide),
    dif_pos (show (1 : Fin S16x16x2048.rank) ∈ dot_S16x16x2048_S16x16x2048_S16x16x16_2_2_1_1_0_0.lhsNonContracting by decide)]
  rfl
/-- … and the contraction position on axis 2. -/
theorem lhsIdx_2 (j : S16x16x16.Idx) (q : dot_S16x16x2048_S16x16x2048_S16x16x16_2_2_1_1_0_0.contr.Idx) :
    (dot_S16x16x2048_S16x16x2048_S16x16x16_2_2_1_1_0_0.lhsIdx j q 2).val = (q ⟨0, by rw [contr_rank]; exact Nat.one_pos⟩).val :=
  dot_S16x16x2048_S16x16x2048_S16x16x16_2_2_1_1_0_0.lhsIdx_val_of_single (cl := (2 : Fin S16x16x2048.rank)) rfl j q

/-- The right operand's index at output index `j`: the batch coordinate on axis 0 … -/
theorem rhsIdx_0 (j : S16x16x16.Idx) (q : dot_S16x16x2048_S16x16x2048_S16x16x16_2_2_1_1_0_0.contr.Idx) :
    (dot_S16x16x2048_S16x16x2048_S16x16x16_2_2_1_1_0_0.rhsIdx j q 0).val = (j 0).val := by
  unfold DotDims.rhsIdx
  rw [dif_pos (show (0 : Fin S16x16x2048.rank) ∈ dot_S16x16x2048_S16x16x2048_S16x16x16_2_2_1_1_0_0.rhsBatch by decide)]
  rfl
/-- … the output's COLUMN on axis 1 … -/
theorem rhsIdx_1 (j : S16x16x16.Idx) (q : dot_S16x16x2048_S16x16x2048_S16x16x16_2_2_1_1_0_0.contr.Idx) :
    (dot_S16x16x2048_S16x16x2048_S16x16x16_2_2_1_1_0_0.rhsIdx j q 1).val = (j 2).val := by
  unfold DotDims.rhsIdx
  rw [dif_neg (show ¬ (1 : Fin S16x16x2048.rank) ∈ dot_S16x16x2048_S16x16x2048_S16x16x16_2_2_1_1_0_0.rhsBatch by decide),
    dif_pos (show (1 : Fin S16x16x2048.rank) ∈ dot_S16x16x2048_S16x16x2048_S16x16x16_2_2_1_1_0_0.rhsNonContracting by decide)]
  rfl
/-- … and the contraction position on axis 2. -/
theorem rhsIdx_2 (j : S16x16x16.Idx) (q : dot_S16x16x2048_S16x16x2048_S16x16x16_2_2_1_1_0_0.contr.Idx) :
    (dot_S16x16x2048_S16x16x2048_S16x16x16_2_2_1_1_0_0.rhsIdx j q 2).val = (q ⟨0, by rw [contr_rank]; exact Nat.one_pos⟩).val :=
  dot_S16x16x2048_S16x16x2048_S16x16x16_2_2_1_1_0_0.rhsIdx_val_of_single (cr := (2 : Fin S16x16x2048.rank)) rfl j q

/-- At output index `(bb, n, m)` and contraction position `k` the left operand is read at `(bb, n, k)` … -/
theorem lhsIdx_eq (bb n m : Fin 16) (k : Fin 2048) :
    dot_S16x16x2048_S16x16x2048_S16x16x16_2_2_1_1_0_0.lhsIdx (ix3 bb n m) ((contrEquiv1 dot_S16x16x2048_S16x16x2048_S16x16x16_2_2_1_1_0_0 2048 contr_rank contr_size).symm k) = ix3 bb n k := by
  funext ax
  refine Fin.ext ?_
  match ax with
  | ⟨0, _⟩ => exact lhsIdx_0 _ _
  | ⟨1, _⟩ => exact lhsIdx_1 _ _
  | ⟨2, _⟩ => exact (lhsIdx_2 _ _).trans (contrEquiv1_symm_val _ 2048 contr_rank contr_size k)

/-- … and the right operand at `(bb, m, k)`. -/
theorem rhsIdx_eq (bb n m : Fin 16) (k : Fin 2048) :
    dot_S16x16x2048_S16x16x2048_S16x16x16_2_2_1_1_0_0.rhsIdx (ix3 bb n m) ((contrEquiv1 dot_S16x16x2048_S16x16x2048_S16x16x16_2_2_1_1_0_0 2048 contr_rank contr_size).symm k) = ix3 bb m k := by
  funext ax
  refine Fin.ext ?_
  match ax with
  | ⟨0, _⟩ => exact rhsIdx_0 _ _
  | ⟨1, _⟩ => exact rhsIdx_1 _ _
  | ⟨2, _⟩ => exact (rhsIdx_2 _ _).trans (contrEquiv1_symm_val _ 2048 contr_rank contr_size k)

/-- The product into a zero accumulator, read at `(bb, n, m)`: the sum over the 2048 positions `k` of the left
    operand at `(bb, n, k)` times the right operand at `(bb, m, k)`. -/
theorem matmul_apply {φ₁ φ₂ : FTy} (L : FVec Ideal S16x16x2048 φ₁) (R : FVec Ideal S16x16x2048 φ₂) (bb n m : Fin 16) :
    matmul dot_S16x16x2048_S16x16x2048_S16x16x16_2_2_1_1_0_0 none L R (constant (F := Ideal) S16x16x16 .f32 0x00000000#32) (ix3 bb n m)
      = ∑ k : Fin 2048, L (ix3 bb n k) * R (ix3 bb m k) := by
  refine (Ideal.matmul_constant_zero_apply _ none L R (ix3 bb n m)).trans ?_
  rw [← Equiv.sum_comp (contrEquiv1 dot_S16x16x2048_S16x16x2048_S16x16x16_2_2_1_1_0_0 2048 contr_rank contr_size).symm]
  refine Finset.sum_congr rfl fun k _ => ?_
  rw [lhsIdx_eq, rhsIdx_eq]

/-! ## The element-wise payloads at an element -/

/-- The sigmoid of the logits, element by element. -/
theorem pay2_apply (x0 : Vec Ideal S16x16x2048 .f32) (j : S16x16x2048.Idx) :
    k0_pay2 (F := Ideal) x0 j = Ideal.logistic (x0 j) := rfl

/-- The softplus of the negated logit. -/
theorem pay3_apply (x0 : Vec Ideal S16x16x2048 .f32) (j : S16x16x2048.Idx) :
    k0_pay3 (F := Ideal) x0 j = Cert.Scalars.softplus (-(x0 j)) := by
  refine (show k0_pay3 (F := Ideal) x0 j
      = Cert.Scalars.softplusK (Ideal.ofBits .f32 0x00000000#32 - x0 j) from rfl).trans ?_
  rw [Cert.Scalars.softplusK_eq, Ideal.ofBits_zero_f32, Cert.Scalars.zero_sub']

/-- The softplus of the logit. -/
theorem pay4_apply (x0 : Vec Ideal S16x16x2048 .f32) (j : S16x16x2048.Idx) :
    k0_pay4 (F := Ideal) x0 j = Cert.Scalars.softplus (x0 j) :=
  (show k0_pay4 (F := Ideal) x0 j = Cert.Scalars.softplusK (x0 j) from rfl).trans (Cert.Scalars.softplusK_eq _)

/-- The focal weight of a positive: the squared complement of the sigmoid times the softplus of the negated logit. -/
theorem pay5_apply (x0 : Vec Ideal S16x16x2048 .f32) (j : S16x16x2048.Idx) :
    k0_pay5 (F := Ideal) x0 j
      = ((Cert.Spec.w1 - Ideal.logistic (x0 j)) * (Cert.Spec.w1 - Ideal.logistic (x0 j))) * Cert.Scalars.softplus (-(x0 j)) := by
  refine (show k0_pay5 (F := Ideal) x0 j
      = ((Cert.Spec.w1 - Ideal.logistic (x0 j)) * (Cert.Spec.w1 - Ideal.logistic (x0 j))) * k0_pay3 (F := Ideal) x0 j from rfl).trans ?_
  rw [pay3_apply]

/-- The focal weight of a negative: the squared sigmoid times the softplus of the logit. -/
theorem pay6_apply (x0 : Vec Ideal S16x16x2048 .f32) (j : S16x16x2048.Idx) :
    k0_pay6 (F := Ideal) x0 j
      = (Ideal.logistic (x0 j) * Ideal.logistic (x0 j)) * Cert.Scalars.softplus (x0 j) := by
  refine (show k0_pay6 (F := Ideal) x0 j
      = (Ideal.logistic (x0 j) * Ideal.logistic (x0 j)) * k0_pay4 (F := Ideal) x0 j from rfl).trans ?_
  rw [pay4_apply]

/-- The complement of the target. -/
theorem pay7_apply (x1 : Vec Ideal S16x16x2048 .f32) (j : S16x16x2048.Idx) :
    k0_pay7 (F := Ideal) x1 j = Cert.Spec.w1 - x1 j := rfl

/-! ## The lane sums -/

/-- The sum of the sigmoids over the positions, kept as a column. -/
theorem pay8_apply (x0 : Vec Ideal S16x16x2048 .f32) (bb n : Fin 16) (u : Fin 1) :
    k0_pay8 (F := Ideal) x0 (ix3 bb n u) = ∑ k : Fin 2048, Ideal.logistic (x0 (ix3 bb n k)) := by
  unfold k0_pay8
  refine (Cert.LibRank3.shapeCast_ab_ab1_apply _ _ bb n u).trans ?_
  exact Cert.LibRank3.multiReduction_add_axis2_apply (k0_pay2 (F := Ideal) x0) _ _ _ _ bb n

/-- The sum of the targets over the positions. -/
theorem pay9_apply (x1 : Vec Ideal S16x16x2048 .f32) (bb m : Fin 16) :
    k0_pay9 (F := Ideal) x1 (ix2 bb m) = ∑ k : Fin 2048, x1 (ix3 bb m k) := by
  unfold k0_pay9
  exact Cert.LibRank3.multiReduction_add_axis2_apply x1 _ _ _ _ bb m

/-! ## The stored value at an index -/

/-- The value the body stores, read at `(bb, n, m)`, over the nine values it is computed from: the dice term from the
    product of `v2` with `v1` and the two lane sums, the cross-entropy term from the products of `v18` with `v1`
    and of `v32` with `v40`, the focal term from those of `v36` with `v1` and of `v38` with `v40`. -/
theorem pay1_apply (v1 : Vec Ideal S16x16x2048 .f32) (v2 v18 v32 v36 v38 v40 : FVec Ideal S16x16x2048 .f32)
    (v42 : FVec Ideal S16x16x1 .f32) (v43 : FVec Ideal S16x16 .f32) (bb n m : Fin 16) :
    k0_pay1 (F := Ideal) v1 v2 v18 v32 v36 v38 v40 v42 v43 (ix3 bb n m)
      = ((Cert.Spec.w1 - Ideal.div (Cert.Spec.w2 * (∑ k : Fin 2048, v2 (ix3 bb n k) * v1 (ix3 bb m k)) + Cert.Spec.w1)
              ((v42 (ix3 bb n (0 : Fin 1)) + v43 (ix2 bb m)) + Cert.Spec.w1))
          + Ideal.div ((∑ k : Fin 2048, v18 (ix3 bb n k) * v1 (ix3 bb m k))
              + (∑ k : Fin 2048, v32 (ix3 bb n k) * v40 (ix3 bb m k))) Cert.Spec.wL)
        + Ideal.div ((∑ k : Fin 2048, v36 (ix3 bb n k) * v1 (ix3 bb m k))
              + (∑ k : Fin 2048, v38 (ix3 bb n k) * v40 (ix3 bb m k))) Cert.Spec.wL := by
  unfold k0_pay1
  simp only [addf_apply, subf_apply, divf_apply, mulf_apply, broadcast_apply, matmul_apply,
    Cert.LibRank3.broadcastTo_ab1_abc_apply, Cert.LibRank3.broadcastTo_a1c_abc_apply,
    Cert.LibRank3.shapeCast_ac_a1c_apply]
  rfl

/-! ## The body's value is the mask cost of the block -/

/-- The value the body stores at `(bb, n, m)`, computed from the block `x0` of logits and the block `x1` of targets,
    is the mask cost of prediction row `n` against target row `m` of the block's batch element `bb`. -/
theorem payload_apply (x0 x1 : Vec Ideal S16x16x2048 .f32) (bb n m : Fin 16) :
    k0_pay1 (F := Ideal) x1 (k0_pay2 x0) (k0_pay3 x0) (k0_pay4 x0) (k0_pay5 x0) (k0_pay6 x0) (k0_pay7 x1) (k0_pay8 x0)
        (k0_pay9 x1) (ix3 bb n m)
      = Cert.Spec.maskCost (B := 16) (N := 16) (L := 2048) x0 x1 bb n m := by
  refine (pay1_apply x1 (k0_pay2 x0) (k0_pay3 x0) (k0_pay4 x0) (k0_pay5 x0) (k0_pay6 x0) (k0_pay7 x1) (k0_pay8 x0)
    (k0_pay9 x1) bb n m).trans ?_
  simp only [pay2_apply, pay3_apply, pay4_apply, pay5_apply, pay6_apply, pay7_apply, pay8_apply, pay9_apply]
  rfl

end Cert.KernelBlock

end
-- ==== Proof.KernelArray.lean ====
/-
  From blocks to the array.  The kernel's grid has 128 points; point t stages the 16 batch elements
  16 t … 16 t + 15 of the two [2048,16,2048] arguments and writes back the [16,16,16] tile of costs of
  those batch elements.  Given that the body's result at (bb, n, m) is the mask cost of its two loaded
  blocks at (bb, n, m), the tile point t writes back is the restriction, to its batch elements, of ONE
  function of the whole arrays — the mask cost of batch element b, prediction n, target m — because the
  cost of (b, n, m) reads the arrays in rows (b, n) and (b, m) only; the 128 tiles cover the result
  array (batch element b lies in the tile of point b / 16), so after the region the array holds that
  function.
-/
import proofs.«122681_j57569741635899_1_alg».proof.Proof.Gen.KernelIdeal.Frame
import proofs.«122681_j57569741635899_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelArray

open Cert.KernelIdeal Cert.KernelIdeal.Gen

variable (m : (ℓ : Loc nD τ sig) → Buf (Elt Ideal) ℓ)

theorem hz : (![0, 0, 0] : Fin 3 → Nat) = fun _ => 0 := funext fun a => by fin_cases a <;> rfl

/-- The mask cost of the whole arrays, index by index. -/
def G (X1 X2 : S2048x16x2048.Idx → EReal) : S2048x16x16.Idx → EReal :=
  fun i => Cert.Spec.maskCost (B := 2048) (N := 16) (L := 2048) X1 X2 (i 0) (i 1) (i 2)

/-- The body's result at an entry is the mask cost of its two loaded blocks there. -/
def PayloadIsCost : Prop :=
  ∀ (x0 x1 : Vec Ideal S16x16x2048 .f32) (bb n k : Fin 16),
    k0_pay1 (F := Ideal) x1 (k0_pay2 x0) (k0_pay3 x0) (k0_pay4 x0) (k0_pay5 x0) (k0_pay6 x0) (k0_pay7 x1) (k0_pay8 x0) (k0_pay9 x1) (ix3 bb n k)
      = Cert.Spec.maskCost (B := 16) (N := 16) (L := 2048) x0 x1 bb n k

/-- The block index maps over the grid: the three windows move together along the batch axis and
    stay at block 0 on the other two. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0 ∧ win0_2.index t (0 : Fin 3) ≤ 127 :=
  (by decide +kernel : ∀ t : Fin grid0.N, _)

/-- Every batch tile is some point's. -/
theorem idx_onto : ∀ q0 : Fin 128, ∃ t : Fin cfg0.N, win0_2.index t = ![q0.val, 0, 0] :=
  (by decide +kernel : ∀ q0 : Fin 128, ∃ t : Fin grid0.N, win0_2.index t = ![q0.val, 0, 0])

set_option maxHeartbeats 1000000 in
/-- What point t writes back is tile t of the mask cost of the arrays as the region finds them. -/
theorem flushed_eq (hpay : PayloadIsCost) (c : Dev nD) (t : Fin cfg0.N) :
    (dats m 0 c).flushed 2 t = ((cfg0.win 2).blk t).view.read (Elt Ideal) (G (V m c main_arg1) (V m c main_arg2)) := by
  show (cfg0.win 2).cut (grid0.coords t) ((dats m 0 c).after 2 t) = _
  rw [after0_2]
  unfold out0_2
  rw [View.canon_unit_zero hz]
  simp only [View.ld_unit_zero (S := S16x16x2048) hz]
  have hP : k0_pay1 (F := Ideal) (iblk m c 1 t) (k0_pay2 (iblk m c 0 t)) (k0_pay3 (iblk m c 0 t)) (k0_pay4 (iblk m c 0 t)) (k0_pay5 (iblk m c 0 t)) (k0_pay6 (iblk m c 0 t)) (k0_pay7 (iblk m c 1 t)) (k0_pay8 (iblk m c 0 t)) (k0_pay9 (iblk m c 1 t))
      = fun y : S16x16x16.Idx => Cert.Spec.maskCost (B := 16) (N := 16) (L := 2048) (iblk m c 0 t) (iblk m c 1 t) (y 0) (y 1) (y 2) :=
    funext fun y => by
      rw [eq_ix3 y]
      exact hpay (iblk m c 0 t) (iblk m c 1 t) (y 0) (y 1) (y 2)
  rw [hP]
  obtain ⟨e0, e1, e2, e3, e4, e5, e6, e7, e8⟩ := idx_facts t
  funext j
  have hj0 : (j 0).val < 16 := (j 0).isLt
  have hj1 : (j 1).val < 16 := (j 1).isLt
  have hj2 : (j 2).val < 16 := (j 2).isLt
  have hemb : ((cfg0.win 2).blk t).view.emb j
      = ix3 (⟨win0_2.index t (0 : Fin 3) * 16 + (j 0).val, by omega⟩ : Fin 2048) (⟨(j 1).val, hj1⟩ : Fin 16) (⟨(j 2).val, hj2⟩ : Fin 16) :=
    funext fun a => Fin.ext (by
      match a with
      | ⟨0, _⟩ => show win0_2.index t (0 : Fin 3) * 16 + 1 * (j 0).val = win0_2.index t (0 : Fin 3) * 16 + (j 0).val; omega
      | ⟨1, _⟩ => show win0_2.index t (1 : Fin 3) * 16 + 1 * (j 1).val = (j 1).val; omega
      | ⟨2, _⟩ => show win0_2.index t (2 : Fin 3) * 16 + 1 * (j 2).val = (j 2).val; omega)
  show Cert.Spec.maskCost (B := 16) (N := 16) (L := 2048) (iblk m c 0 t) (iblk m c 1 t) (⟨(j 0).val, hj0⟩ : Fin 16) (⟨(j 1).val, hj1⟩ : Fin 16) (⟨(j 2).val, hj2⟩ : Fin 16)
    = G (V m c main_arg1) (V m c main_arg2) (((cfg0.win 2).blk t).view.emb j)
  rw [hemb]
  show _ = Cert.Spec.maskCost (B := 2048) (N := 16) (L := 2048) (V m c main_arg1) (V m c main_arg2)
    (⟨win0_2.index t (0 : Fin 3) * 16 + (j 0).val, by omega⟩ : Fin 2048) (⟨(j 1).val, hj1⟩ : Fin 16) (⟨(j 2).val, hj2⟩ : Fin 16)
  refine Cert.Spec.maskCost_congr (iblk m c 0 t) (iblk m c 1 t) (V m c main_arg1) (V m c main_arg2) _ _ _ _ (fun l => ?_) (fun l => ?_)
  · show V m c main_arg1 (((cfg0.win 0).blk t).view.emb (ix3 (⟨(j 0).val, hj0⟩ : Fin 16) (⟨(j 1).val, hj1⟩ : Fin 16) l)) = V m c main_arg1 _
    refine congrArg (V m c main_arg1) (funext fun a => Fin.ext ?_)
    match a with
    | ⟨0, _⟩ => show win0_0.index t (0 : Fin 3) * 16 + 1 * (j 0).val = win0_2.index t (0 : Fin 3) * 16 + (j 0).val; omega
    | ⟨1, _⟩ => show win0_0.index t (1 : Fin 3) * 16 + 1 * (j 1).val = (j 1).val; omega
    | ⟨2, _⟩ => show win0_0.index t (2 : Fin 3) * 2048 + 1 * l.val = l.val; omega
  · show V m c main_arg2 (((cfg0.win 1).blk t).view.emb (ix3 (⟨(j 0).val, hj0⟩ : Fin 16) (⟨(j 2).val, hj2⟩ : Fin 16) l)) = V m c main_arg2 _
    refine congrArg (V m c main_arg2) (funext fun a => Fin.ext ?_)
    match a with
    | ⟨0, _⟩ => show win0_1.index t (0 : Fin 3) * 16 + 1 * (j 0).val = win0_2.index t (0 : Fin 3) * 16 + (j 0).val; omega
    | ⟨1, _⟩ => show win0_1.index t (1 : Fin 3) * 16 + 1 * (j 2).val = (j 2).val; omega
    | ⟨2, _⟩ => show win0_1.index t (2 : Fin 3) * 2048 + 1 * l.val = l.val; omega

/-- An index of the result array is in point t's tile iff each coordinate is in the tile's range. -/
theorem mem_blk (t : Fin cfg0.N) (i : S2048x16x16.Idx) :
    i ∈ ((cfg0.win 2).blk t).view.set ↔ ∀ a : Fin 3, win0_2.index t a * S16x16x16.size a ≤ (i a).val ∧ (i a).val < win0_2.index t a * S16x16x16.size a + S16x16x16.size a := by
  show i ∈ ((View.whole main_v20).slice (win0_2.rect t)).set ↔ _
  rw [View.set_slice_whole, Rect.mem_set_unit]
  exact Iff.rfl

/-- The tiles cover the result array: batch element b is in the tile of point b / 16. -/
theorem cover (i : S2048x16x16.Idx) : ∃ t : Fin cfg0.N, (cfg0.win 2).flush t = true ∧ i ∈ ((cfg0.win 2).blk t).view.set := by
  have hi0 : (i 0).val < 2048 := (i 0).isLt
  have hi1 : (i 1).val < 16 := (i 1).isLt
  have hi2 : (i 2).val < 16 := (i 2).isLt
  obtain ⟨t, ht⟩ := idx_onto ⟨(i 0).val / 16, by omega⟩
  have q0 : win0_2.index t (0 : Fin 3) = (i 0).val / 16 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 16 ≤ (i 0).val ∧ (i 0).val < win0_2.index t (0 : Fin 3) * 16 + 16; omega
  | ⟨1, _⟩ => show win0_2.index t (1 : Fin 3) * 16 ≤ (i 1).val ∧ (i 1).val < win0_2.index t (1 : Fin 3) * 16 + 16; omega
  | ⟨2, _⟩ => show win0_2.index t (2 : Fin 3) * 16 ≤ (i 2).val ∧ (i 2).val < win0_2.index t (2 : Fin 3) * 16 + 16; omega

/-- After the region the result array holds the mask cost of the two arguments as launched. -/
theorem final (hpay : PayloadIsCost) (c : Dev nD) :
    (dats m 0 c).arrAt 2 cfg0.N = G (m ((c : Thread nD τ).loc main_arg1)) (m ((c : Thread nD τ).loc main_arg2)) :=
  ((dats m 0 c).arrAt_eq_of_cover 2 (G (V m c main_arg1) (V m c main_arg2)) (fun t _ => flushed_eq m hpay c t) cover).trans
    (by rw [V_main_arg1, V_main_arg2])

end Cert.KernelArray

end
-- ==== Proof.KernelHost.lean ====
/-
  The host lines around the region, read as functions.  Before the region the program computes, from
  the class table x0 and the object classes x5: which objects are valid (class ≠ 4), each batch
  element's number of valid objects, and the class cost — minus the class probability gathered at the
  first four target classes, zero where the target is the padding class, placed in the first four of
  sixteen target columns of a zero array.  After the region it computes the mean absolute regression
  error of every prediction against every (validity-masked) target, adds  1·class cost + mask cost
  + 1·error, and keeps the sum in the columns below the batch element's number of valid objects,
  a fixed junk word elsewhere; the second result is that number as a column.
  Each is the composition of the printed host operations, stated once so that a run of the program
  can name what a buffer holds.
-/
import proofs.«122681_j57569741635899_1_alg».proof.Proof.Gen.KernelIdeal.Launch
import Idealize.ShloMosaic.Lib.StableHlo.Run
import Idealize.ShloMosaic.PureOps.Ideal

noncomputable section

open Idealize.ShloMosaic Idealize.ShloMosaic.TcCoe Idealize.SL.Sem Idealize.ShloMosaic.StableHlo

namespace Cert.KernelHost

open Cert.KernelIdeal Cert.KernelIdeal.Gen

/-- An array of the given shape and element type at the ideal values. -/
abbrev Arr (s : Shape) (e : EltTy) := (⟨s, e⟩ : BufTy).Contents (Elt Ideal)

/-- Which objects are valid: the class is not the padding class 4. -/
def validObj (x5 : Arr S2048x16 .i32) : Arr S2048x16 .i1 :=
  ((cmpi .ne) x5 ((broadcastInDim S2048x16 ![] bcast_S_S2048x16) (constantI S_ 32 4#32)))

/-- The number of valid objects of each batch element. -/
def lengths (x5 : Arr S2048x16 .i32) : Arr S2048 .i32 :=
  (((fun x v => Host.reduce IntOp.addi x v reducesTo_S2048x16_S2048_d1 h_S_)) (((extui 32 · natLt_1_32)) ((cmpi .ne) x5 ((broadcastInDim S2048x16 ![] bcast_S_S2048x16) (constantI S_ 32 4#32)))) (constantI S_ 32 0#32))

/-- The class cost. -/
def cls (x0 : Arr S2048x16x5 .f32) (x5 : Arr S2048x16 .i32) : Arr S2048x16x16 .f32 :=
  (((fun x i u => Host.scatter scatter_S2048x16x16_S1_S2048x16x4_012_n_2_0 (fun _ b => b) x i u)) ((broadcastInDim S2048x16x16 ![] bcast_S_S2048x16x16) (constant (F := Ideal) S_ .f32 0x00000000#32)) ((broadcastInDim S1 ![] bcast_S_S1) (constantI S_ 32 0#32)) ((Host.negf) ((mulf) (select ((fun x v => Host.reduce IntOp.andi x v reducesTo_S2048x16x4x1_S2048x16x4_d3 h_S_) (andi ((cmpi .sge) (shapeCast _ (select ((cmpi .slt) ((broadcastInDim S2048x16x4 ![0, 1, 2] bcast_S2048x1x4_S2048x16x4_0_1_2) ((broadcastInDim S2048x1x4 ![0, 2] bcast_S2048x4_S2048x1x4_0_2) ((muli) (((extractStridedSlice S2048x4 ![0, 0] · slices_S2048x16_S2048x4_0_0)) x5) (((extui 32 · natLt_1_32)) ((cmpi .ne) (((extractStridedSlice S2048x4 ![0, 0] · slices_S2048x16_S2048x4_0_0)) x5) ((broadcastInDim S2048x4 ![] bcast_S_S2048x4) (constantI S_ 32 4#32))))))) ((broadcastInDim S2048x16x4 ![] bcast_S_S2048x16x4) (constantI S_ 32 0#32))) (addi ((broadcastInDim S2048x16x4 ![0, 1, 2] bcast_S2048x1x4_S2048x16x4_0_1_2) ((broadcastInDim S2048x1x4 ![0, 2] bcast_S2048x4_S2048x1x4_0_2) ((muli) (((extractStridedSlice S2048x4 ![0, 0] · slices_S2048x16_S2048x4_0_0)) x5) (((extui 32 · natLt_1_32)) ((cmpi .ne) (((extractStridedSlice S2048x4 ![0, 0] · slices_S2048x16_S2048x4_0_0)) x5) ((broadcastInDim S2048x4 ![] bcast_S_S2048x4) (constantI S_ 32 4#32))))))) ((broadcastInDim S2048x16x4 ![] bcast_S_S2048x16x4) (constantI S_ 32 5#32))) ((broadcastInDim S2048x16x4 ![0, 1, 2] bcast_S2048x1x4_S2048x16x4_0_1_2) ((broadcastInDim S2048x1x4 ![0, 2] bcast_S2048x4_S2048x1x4_0_2) ((muli) (((extractStridedSlice S2048x4 ![0, 0] · slices_S2048x16_S2048x4_0_0)) x5) (((extui 32 · natLt_1_32)) ((cmpi .ne) (((extractStridedSlice S2048x4 ![0, 0] · slices_S2048x16_S2048x4_0_0)) x5) ((broadcastInDim S2048x4 ![] bcast_S_S2048x4) (constantI S_ 32 4#32)))))))) shapeCasts_S2048x16x4_S2048x16x4x1) ((broadcastInDim S2048x16x4x1 ![] bcast_S_S2048x16x4x1) (constantI S_ 32 0#32))) ((cmpi .sle) (shapeCast _ (select ((cmpi .slt) ((broadcastInDim S2048x16x4 ![0, 1, 2] bcast_S2048x1x4_S2048x16x4_0_1_2) ((broadcastInDim S2048x1x4 ![0, 2] bcast_S2048x4_S2048x1x4_0_2) ((muli) (((extractStridedSlice S2048x4 ![0, 0] · slices_S2048x16_S2048x4_0_0)) x5) (((extui 32 · natLt_1_32)) ((cmpi .ne) (((extractStridedSlice S2048x4 ![0, 0] · slices_S2048x16_S2048x4_0_0)) x5) ((broadcastInDim S2048x4 ![] bcast_S_S2048x4) (constantI S_ 32 4#32))))))) ((broadcastInDim S2048x16x4 ![] bcast_S_S2048x16x4) (constantI S_ 32 0#32))) (addi ((broadcastInDim S2048x16x4 ![0, 1, 2] bcast_S2048x1x4_S2048x16x4_0_1_2) ((broadcastInDim S2048x1x4 ![0, 2] bcast_S2048x4_S2048x1x4_0_2) ((muli) (((extractStridedSlice S2048x4 ![0, 0] · slices_S2048x16_S2048x4_0_0)) x5) (((extui 32 · natLt_1_32)) ((cmpi .ne) (((extractStridedSlice S2048x4 ![0, 0] · slices_S2048x16_S2048x4_0_0)) x5) ((broadcastInDim S2048x4 ![] bcast_S_S2048x4) (constantI S_ 32 4#32))))))) ((broadcastInDim S2048x16x4 ![] bcast_S_S2048x16x4) (constantI S_ 32 5#32))) ((broadcastInDim S2048x16x4 ![0, 1, 2] bcast_S2048x1x4_S2048x16x4_0_1_2) ((broadcastInDim S2048x1x4 ![0, 2] bcast_S2048x4_S2048x1x4_0_2) ((muli) (((extractStridedSlice S2048x4 ![0, 0] · slices_S2048x16_S2048x4_0_0)) x5) (((extui 32 · natLt_1_32)) ((cmpi .ne) (((extractStridedSlice S2048x4 ![0, 0] · slices_S2048x16_S2048x4_0_0)) x5) ((broadcastInDim S2048x4 ![] bcast_S_S2048x4) (constantI S_ 32 4#32)))))))) shapeCasts_S2048x16x4_S2048x16x4x1) ((broadcastInDim S2048x16x4x1 ![0, 1, 2, 3] bcast_S1x1x1x1_S2048x16x4x1_0_1_2_3) ((broadcastInDim S1x1x1x1 ![3] bcast_S1_S1x1x1x1_3) (constantI S1 32 4#32))))) (constantI S_ 1 1#1)) ((fun x i => Host.gather gather_S2048x16x5_S2048x16x4x1_S2048x16x4_n_2_01_01_2_3_111 x i) x0 (shapeCast _ (select ((cmpi .slt) ((broadcastInDim S2048x16x4 ![0, 1, 2] bcast_S2048x1x4_S2048x16x4_0_1_2) ((broadcastInDim S2048x1x4 ![0, 2] bcast_S2048x4_S2048x1x4_0_2) ((muli) (((extractStridedSlice S2048x4 ![0, 0] · slices_S2048x16_S2048x4_0_0)) x5) (((extui 32 · natLt_1_32)) ((cmpi .ne) (((extractStridedSlice S2048x4 ![0, 0] · slices_S2048x16_S2048x4_0_0)) x5) ((broadcastInDim S2048x4 ![] bcast_S_S2048x4) (constantI S_ 32 4#32))))))) ((broadcastInDim S2048x16x4 ![] bcast_S_S2048x16x4) (constantI S_ 32 0#32))) (addi ((broadcastInDim S2048x16x4 ![0, 1, 2] bcast_S2048x1x4_S2048x16x4_0_1_2) ((broadcastInDim S2048x1x4 ![0, 2] bcast_S2048x4_S2048x1x4_0_2) ((muli) (((extractStridedSlice S2048x4 ![0, 0] · slices_S2048x16_S2048x4_0_0)) x5) (((extui 32 · natLt_1_32)) ((cmpi .ne) (((extractStridedSlice S2048x4 ![0, 0] · slices_S2048x16_S2048x4_0_0)) x5) ((broadcastInDim S2048x4 ![] bcast_S_S2048x4) (constantI S_ 32 4#32))))))) ((broadcastInDim S2048x16x4 ![] bcast_S_S2048x16x4) (constantI S_ 32 5#32))) ((broadcastInDim S2048x16x4 ![0, 1, 2] bcast_S2048x1x4_S2048x16x4_0_1_2) ((broadcastInDim S2048x1x4 ![0, 2] bcast_S2048x4_S2048x1x4_0_2) ((muli) (((extractStridedSlice S2048x4 ![0, 0] · slices_S2048x16_S2048x4_0_0)) x5) (((extui 32 · natLt_1_32)) ((cmpi .ne) (((extractStridedSlice S2048x4 ![0, 0] · slices_S2048x16_S2048x4_0_0)) x5) ((broadcastInDim S2048x4 ![] bcast_S_S2048x4) (constantI S_ 32 4#32)))))))) shapeCasts_S2048x16x4_S2048x16x4x1)) ((broadcastInDim S2048x16x4 ![] bcast_S_S2048x16x4) (constant (F := Ideal) S_ .f32 0x7FC00000#32))) ((broadcastInDim S2048x16x4 ![0, 1, 2] bcast_S2048x1x4_S2048x16x4_0_1_2) ((uitofp .f32) ((broadcastInDim S2048x1x4 ![0, 2] bcast_S2048x4_S2048x1x4_0_2) ((cmpi .ne) (((extractStridedSlice S2048x4 ![0, 0] · slices_S2048x16_S2048x4_0_0)) x5) ((broadcastInDim S2048x4 ![] bcast_S_S2048x4) (constantI S_ 32 4#32)))))))))

/-- The mean absolute regression error of every prediction against every target, the targets of
    invalid objects zeroed. -/
def mae (x3 x4 : Arr S2048x16x4 .f32) (v1 : Arr S2048x16 .i1) : Arr S2048x16x16 .f32 :=
  ((Host.divf) (((fun x v => Host.reduceAdd x v reducesTo_S2048x16x16x4_S2048x16x16_d3 h_S_)) ((Host.absf) ((subf) ((broadcastInDim S2048x16x16x4 ![0, 1, 2, 3] bcast_S2048x16x1x4_S2048x16x16x4_0_1_2_3) ((broadcastInDim S2048x16x1x4 ![0, 1, 3] bcast_S2048x16x4_S2048x16x1x4_0_1_3) x3)) ((broadcastInDim S2048x16x16x4 ![0, 1, 2, 3] bcast_S2048x1x16x4_S2048x16x16x4_0_1_2_3) ((broadcastInDim S2048x1x16x4 ![0, 2, 3] bcast_S2048x16x4_S2048x1x16x4_0_2_3) ((mulf) x4 ((broadcastInDim S2048x16x4 ![0, 1, 2] bcast_S2048x16x1_S2048x16x4_0_1_2) ((uitofp .f32) ((broadcastInDim S2048x16x1 ![0, 1] bcast_S2048x16_S2048x16x1_0_1) v1)))))))) (constant (F := Ideal) S_ .f32 0x00000000#32)) ((broadcastInDim S2048x16x16 ![] bcast_S_S2048x16x16) (constant (F := Ideal) S_ .f32 0x40800000#32)))

/-- Which columns are below the number of valid objects, spread over the predictions. -/
def colMask (v3 : Arr S2048 .i32) : Arr S2048x16x16 .i1 :=
  ((broadcastInDim S2048x16x16 ![0, 1, 2] bcast_S2048x1x16_S2048x16x16_0_1_2) ((broadcastInDim S2048x1x16 ![0, 2] bcast_S2048x16_S2048x1x16_0_2) ((cmpi .slt) ((broadcastInDim S2048x16 ![0, 1] bcast_S1x16_S2048x16_0_1) ((broadcastInDim S1x16 ![1] bcast_S16_S1x16_1) (iotaInDim S16 32 0))) ((broadcastInDim S2048x16 ![0, 1] bcast_S2048x1_S2048x16_0_1) ((broadcastInDim S2048x1 ![0] bcast_S2048_S2048x1_0) v3)))))

/-- The unit weight and the junk word, as arrays. -/
def ones : Arr S2048x16x16 .f32 :=
  ((broadcastInDim S2048x16x16 ![] bcast_S_S2048x16x16) (constant (F := Ideal) S_ .f32 0x3F800000#32))
def junk : Arr S2048x16x16 .f32 :=
  ((broadcastInDim S2048x16x16 ![] bcast_S_S2048x16x16) (id (constant (F := Ideal) S_ .f32 0x7FC00000#32)))

/-- The first result from what the lines after the region read: validity, counts, class cost, the
    region's mask cost, and the two regression arrays. -/
def tail (v1 : Arr S2048x16 .i1) (v3 : Arr S2048 .i32) (v19 v20 : Arr S2048x16x16 .f32) (x3 x4 : Arr S2048x16x4 .f32) :
    Arr S2048x16x16 .f32 :=
  select (colMask v3) (addf (F := Ideal) (s := S2048x16x16) (φ := .f32) (addf (F := Ideal) (s := S2048x16x16) (φ := .f32) (mulf (F := Ideal) (s := S2048x16x16) (φ := .f32) ones v19) v20) (mulf (F := Ideal) (s := S2048x16x16) (φ := .f32) ones (mae x3 x4 v1))) junk

/-- The second result: the counts as a column. -/
def lengthsCol (v3 : Arr S2048 .i32) : Arr S2048x1 .i32 :=
  ((broadcastInDim S2048x1 ![0] bcast_S2048_S2048x1_0) v3)

variable (M : Valuation τ sig (Elt Ideal))

attribute [local irreducible] Host.reduce Host.reduceAdd Host.gather Host.scatter in
set_option maxRecDepth 65536 in
set_option maxHeartbeats 4000000 in
/-- What the lines before the region leave in the validity buffer. -/
theorem prefix_v1 : after (List.flatten [hostOps0, hostOps0_1, hostOps0_2]) M (Proc.devRef .tc main_v1)
    = validObj (M (Proc.devRef .tc main_arg5)) := by
  simp only [hostOps0, hostOps0_1, hostOps0_2, List.flatten_cons, List.flatten_nil, List.append_nil, List.cons_append, List.nil_append]
  after_results_simp
  rfl

attribute [local irreducible] Host.reduce Host.reduceAdd Host.gather Host.scatter in
set_option maxRecDepth 65536 in
set_option maxHeartbeats 4000000 in
/-- … in the counts buffer. -/
theorem prefix_v3 : after (List.flatten [hostOps0, hostOps0_1, hostOps0_2]) M (Proc.devRef .tc main_v3)
    = lengths (M (Proc.devRef .tc main_arg5)) := by
  simp only [hostOps0, hostOps0_1, hostOps0_2, List.flatten_cons, List.flatten_nil, List.append_nil, List.cons_append, List.nil_append]
  after_results_simp
  rfl

attribute [local irreducible] Host.reduce Host.reduceAdd Host.gather Host.scatter in
set_option maxRecDepth 65536 in
set_option maxHeartbeats 16000000 in
/-- … in the class-cost buffer. -/
theorem prefix_v19 : after (List.flatten [hostOps0, hostOps0_1, hostOps0_2]) M (Proc.devRef .tc main_v19)
    = cls (M (Proc.devRef .tc main_arg0)) (M (Proc.devRef .tc main_arg5)) := by
  simp only [hostOps0, hostOps0_1, hostOps0_2, List.flatten_cons, List.flatten_nil, List.append_nil, List.cons_append, List.nil_append]
  after_results_simp
  rfl

attribute [local irreducible] Host.reduce Host.reduceAdd Host.gather Host.scatter in
set_option maxRecDepth 65536 in
set_option maxHeartbeats 16000000 in
/-- What the lines after the region leave in the first result's buffer. -/
theorem suffix_v47 : after (List.flatten [hostOps1, hostOps1_1, hostOps1_2]) M (Proc.devRef .tc main_v47)
    = tail (M (Proc.devRef .tc main_v1)) (M (Proc.devRef .tc main_v3)) (M (Proc.devRef .tc main_v19)) (M (Proc.devRef .tc main_v20))
        (M (Proc.devRef .tc main_arg3)) (M (Proc.devRef .tc main_arg4)) := by
  simp only [hostOps1, hostOps1_1, hostOps1_2, List.flatten_cons, List.flatten_nil, List.append_nil, List.cons_append, List.nil_append]
  after_results_simp
  rfl

attribute [local irreducible] Host.reduce Host.reduceAdd Host.gather Host.scatter in
set_option maxRecDepth 65536 in
set_option maxHeartbeats 4000000 in
/-- … and in the second result's. -/
theorem suffix_v48 : after (List.flatten [hostOps1, hostOps1_1, hostOps1_2]) M (Proc.devRef .tc main_v48)
    = lengthsCol (M (Proc.devRef .tc main_v3)) := by
  simp only [hostOps1, hostOps1_1, hostOps1_2, List.flatten_cons, List.flatten_nil, List.append_nil, List.cons_append, List.nil_append]
  after_results_simp
  rfl

end Cert.KernelHost

end
-- ==== Proof.KernelRun.lean ====
/-
  The kernel's run, read.  The generated frame run ends with every array of the region at what the
  region leaves and every other buffer at what the host lines after the region compute from the
  buffers as the region left them.  Here the two result buffers are named: the lines after the region
  read the region's output array — the mask cost of the two arguments as launched (the blocks-to-array
  step) —, three buffers the lines before the region wrote (object validity, the counts, the class
  cost: functions of the arguments as launched) and two arguments; so the first result is the tail
  function of those, and the second the counts as a column.
-/
import proofs.«122681_j57569741635899_1_alg».proof.Proof.Gen.KernelIdeal.Frame
import proofs.«122681_j57569741635899_1_alg».proof.Proof.KernelArray
import proofs.«122681_j57569741635899_1_alg».proof.Proof.KernelHost

noncomputable section

open Idealize.ShloMosaic Idealize.ShloMosaic.TcCoe Idealize.SL.Sem Idealize.ShloMosaic.StableHlo
open Idealize.ShloMosaic.Pipeline (Dat)

namespace Cert.KernelRun

open Cert.KernelIdeal Cert.KernelIdeal.Gen Cert.KernelArray Cert.KernelHost

variable (m : (ℓ : Loc nD τ sig) → Buf (Elt Ideal) ℓ) (ρ : Dev nD → PrngReg)

/-- The buffers as the lines after the region find them: the region's arrays as the region left them,
    every other buffer as the lines before the region left it. -/
def W (c : Dev nD) : Valuation τ sig (Elt Ideal) :=
  Pipeline.withArrays (cfgs 0).spec c (V0 m c) fun w => (dats m 0 c).arrAt w (cfgs 0).N

theorem afterTail_eq (c : Dev nD) (b : Ref sig .tc) :
    Pipeline.afterTail₀ cfgs (dats m) 0 (V0 m) [hostOps1, hostOps1_1, hostOps1_2] c b
      = after (List.flatten [hostOps1, hostOps1_1, hostOps1_2]) (W m c) (Proc.devRef .tc b) := rfl

/-- The region's output array there is the mask cost of the arguments. -/
theorem W_v20 (hpay : PayloadIsCost) (c : Dev nD) :
    W m c (Proc.devRef .tc main_v20) = G (m ((c : Thread nD τ).loc main_arg1)) (m ((c : Thread nD τ).loc main_arg2)) :=
  (Pipeline.withArrays_arr spec0 launch0.win.arr_inj c _ _ 2).trans (final m hpay c)

/-- A buffer that is no array of the region is as the lines before the region left it. -/
theorem W_of_ne (c : Dev nD) (b : Ref sig .tc) (hb : ∀ w, Pipeline.arrRef spec0 w ≠ b) :
    W m c (Proc.devRef .tc b) = after (List.flatten [hostOps0, hostOps0_1, hostOps0_2]) (fun b => m (c, b)) (Proc.devRef .tc b) :=
  Pipeline.withArrays_of_ne _ c (V0 m c) _ b hb

theorem W_v1 (c : Dev nD) : W m c (Proc.devRef .tc main_v1) = validObj (m ((c : Thread nD τ).loc main_arg5)) :=
  (W_of_ne m c main_v1 (by decide)).trans (prefix_v1 _)
theorem W_v3 (c : Dev nD) : W m c (Proc.devRef .tc main_v3) = lengths (m ((c : Thread nD τ).loc main_arg5)) :=
  (W_of_ne m c main_v3 (by decide)).trans (prefix_v3 _)
theorem W_v19 (c : Dev nD) : W m c (Proc.devRef .tc main_v19)
    = cls (m ((c : Thread nD τ).loc main_arg0)) (m ((c : Thread nD τ).loc main_arg5)) :=
  (W_of_ne m c main_v19 (by decide)).trans (prefix_v19 _)
theorem W_arg3 (c : Dev nD) : W m c (Proc.devRef .tc main_arg3) = m ((c : Thread nD τ).loc main_arg3) :=
  (W_of_ne m c main_arg3 (by decide)).trans (V_main_arg3 m c)
theorem W_arg4 (c : Dev nD) : W m c (Proc.devRef .tc main_arg4) = m ((c : Thread nD τ).loc main_arg4) :=
  (W_of_ne m c main_arg4 (by decide)).trans (V_main_arg4 m c)

/-- The first result's buffer after the run. -/
theorem tail_v47 (hpay : PayloadIsCost) (c : Dev nD) :
    Pipeline.afterTail₀ cfgs (dats m) 0 (V0 m) [hostOps1, hostOps1_1, hostOps1_2] c main_v47
      = tail (validObj (m ((c : Thread nD τ).loc main_arg5))) (lengths (m ((c : Thread nD τ).loc main_arg5)))
          (cls (m ((c : Thread nD τ).loc main_arg0)) (m ((c : Thread nD τ).loc main_arg5)))
          (G (m ((c : Thread nD τ).loc main_arg1)) (m ((c : Thread nD τ).loc main_arg2)))
          (m ((c : Thread nD τ).loc main_arg3)) (m ((c : Thread nD τ).loc main_arg4)) := by
  rw [afterTail_eq, suffix_v47, W_v1, W_v3, W_v19, W_v20 m hpay, W_arg3, W_arg4]

/-- The second result's. -/
theorem tail_v48 (c : Dev nD) :
    Pipeline.afterTail₀ cfgs (dats m) 0 (V0 m) [hostOps1, hostOps1_1, hostOps1_2] c main_v48
      = lengthsCol (lengths (m ((c : Thread nD τ).loc main_arg5))) := by
  rw [afterTail_eq, suffix_v48, W_v3]

/-- The kernel's run with both results named and the arguments unchanged. -/
theorem run (hpay : PayloadIsCost) :
    θ_run defs (onTc (τ := τ) (main (F := Ideal))) ⟨m, fun _ => 0, ρ⟩ fun r => ∀ c : Dev nD,
      r.2.mem ((c.tc : Thread nD τ).loc main_v47)
        = tail (validObj (m ((c.tc : Thread nD τ).loc main_arg5))) (lengths (m ((c.tc : Thread nD τ).loc main_arg5)))
            (cls (m ((c.tc : Thread nD τ).loc main_arg0)) (m ((c.tc : Thread nD τ).loc main_arg5)))
            (G (m ((c.tc : Thread nD τ).loc main_arg1)) (m ((c.tc : Thread nD τ).loc main_arg2)))
            (m ((c.tc : Thread nD τ).loc main_arg3)) (m ((c.tc : Thread nD τ).loc main_arg4))
      ∧ r.2.mem ((c.tc : Thread nD τ).loc main_v48) = lengthsCol (lengths (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v47 (Pipeline.mem_restRefs_of main_v47 (by decide) (by decide))).trans (tail_v47 m hpay c),
      ((h c).2 main_v48 (Pipeline.mem_restRefs_of main_v48 (by decide) (by decide))).trans (tail_v48 m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelRun

end
-- ==== Proof.RefLine.lean ====
/-
  The reference program as a straight line.  @main is 182 tensor operations in order — its four outlined
  functions unfolded at their calls, each over that call's own buffers — and every operation touches
  TensorCore buffers only.
-/
import proofs.«122681_j57569741635899_1_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

section Line

variable {F : FTy → Type} [FloatOps F]

/-- @main's 182 operations in order, the four calls unfolded over their records. -/
abbrev ops : List (HloOp τ sig (Elt F)) :=
  [ nullary main_c (constantI S_ 32 4#32),
    unary main_c main_v0 (broadcastInDim S2048x16 ![] bcast_S_S2048x16 : (⟨S_, .i32⟩ : BufTy).Contents (Elt F) → (⟨S2048x16, .i32⟩ : BufTy).Contents (Elt F)),
    binary main_arg5 main_v0 main_v1 (cmpi .ne : (⟨S2048x16, .i32⟩ : BufTy).Contents (Elt F) → (⟨S2048x16, .i32⟩ : BufTy).Contents (Elt F) → (⟨S2048x16, .i1⟩ : BufTy).Contents (Elt F)),
    unary main_v1 main_v2 ((extui 32 · natLt_1_32) : (⟨S2048x16, .i1⟩ : BufTy).Contents (Elt F) → (⟨S2048x16, .i32⟩ : BufTy).Contents (Elt F)),
    nullary main_c_0 (constantI S_ 32 0#32),
    binary main_v2 main_c_0 main_v3 ((fun x v => Host.reduce IntOp.addi x v reducesTo_S2048x16_S2048_d1 h_S_) : (⟨S2048x16, .i32⟩ : BufTy).Contents (Elt F) → (⟨S_, .i32⟩ : BufTy).Contents (Elt F) → (⟨S2048, .i32⟩ : BufTy).Contents (Elt F)),
    unary main_arg5 main_v4 ((extractStridedSlice S2048x4 ![0, 0] · slices_S2048x16_S2048x4_0_0) : (⟨S2048x16, .i32⟩ : BufTy).Contents (Elt F) → (⟨S2048x4, .i32⟩ : BufTy).Contents (Elt F)),
    nullary main_c_1 (constantI S_ 32 4#32),
    unary main_c_1 main_v5 (broadcastInDim S2048x4 ![] bcast_S_S2048x4 : (⟨S_, .i32⟩ : BufTy).Contents (Elt F) → (⟨S2048x4, .i32⟩ : BufTy).Contents (Elt F)),
    binary main_v4 main_v5 main_v6 (cmpi .ne : (⟨S2048x4, .i32⟩ : BufTy).Contents (Elt F) → (⟨S2048x4, .i32⟩ : BufTy).Contents (Elt F) → (⟨S2048x4, .i1⟩ : BufTy).Contents (Elt F)),
    unary main_v6 main_v7 ((extui 32 · natLt_1_32) : (⟨S2048x4, .i1⟩ : BufTy).Contents (Elt F) → (⟨S2048x4, .i32⟩ : BufTy).Contents (Elt F)),
    binary main_v4 main_v7 main_v8 (muli : (⟨S2048x4, .i32⟩ : BufTy).Contents (Elt F) → (⟨S2048x4, .i32⟩ : BufTy).Contents (Elt F) → (⟨S2048x4, .i32⟩ : BufTy).Contents (Elt F)),
    unary main_v8 main_v9 (broadcastInDim S2048x1x4 ![0, 2] bcast_S2048x4_S2048x1x4_0_2 : (⟨S2048x4, .i32⟩ : BufTy).Contents (Elt F) → (⟨S2048x1x4, .i32⟩ : BufTy).Contents (Elt F)),
    unary main_v9 main_v10 (broadcastInDim S2048x16x4 ![0, 1, 2] bcast_S2048x1x4_S2048x16x4_0_1_2 : (⟨S2048x1x4, .i32⟩ : BufTy).Contents (Elt F) → (⟨S2048x16x4, .i32⟩ : BufTy).Contents (Elt F)),
    TRef.nullary main_call0.c (constantI S_ 32 0#32),
    TRef.unary main_call0.c main_call0.v0 (broadcastInDim S2048x16x4 ![] bcast_S_S2048x16x4),
    TRef.binary (TRef.of (T := ⟨S2048x16x4, .i32⟩) main_v10) main_call0.v0 main_call0.v1 (cmpi .slt),
    TRef.nullary main_call0.c_0 (constantI S_ 32 5#32),
    TRef.unary main_call0.c_0 main_call0.v2 (broadcastInDim S2048x16x4 ![] bcast_S_S2048x16x4),
    TRef.binary (TRef.of (T := ⟨S2048x16x4, .i32⟩) main_v10) main_call0.v2 main_call0.v3 addi,
    TRef.ternary main_call0.v1 main_call0.v3 (TRef.of (T := ⟨S2048x16x4, .i32⟩) main_v10) main_call0.v4 select,
    TRef.reshape main_call0.v4 main_call0.v5 rfl shapeCasts_S2048x16x4_S2048x16x4x1,
    TRef.nullary main_call0.c_1 (constantI S1 32 4#32),
    TRef.nullary main_call0.c_2 (constantI S_ 32 0#32),
    TRef.unary main_call0.c_2 main_call0.v6 (broadcastInDim S2048x16x4x1 ![] bcast_S_S2048x16x4x1),
    TRef.binary main_call0.v5 main_call0.v6 main_call0.v7 (cmpi .sge),
    TRef.unary main_call0.c_1 main_call0.v8 (broadcastInDim S1x1x1x1 ![3] bcast_S1_S1x1x1x1_3),
    TRef.unary main_call0.v8 main_call0.v9 (broadcastInDim S2048x16x4x1 ![0, 1, 2, 3] bcast_S1x1x1x1_S2048x16x4x1_0_1_2_3),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x16x4x1_S2048x16x4_d3 h_S_),
    TRef.binary (TRef.of (T := ⟨S2048x16x5, .f32⟩) main_arg0) main_call0.v5 main_call0.v13 (fun x i => Host.gather gather_S2048x16x5_S2048x16x4x1_S2048x16x4_n_2_01_01_2_3_111 x i),
    TRef.nullary main_call0.cst (constant S_ .f32 0x7FC00000#32),
    TRef.unary main_call0.cst main_call0.v14 (broadcastInDim S2048x16x4 ![] bcast_S_S2048x16x4),
    TRef.ternary main_call0.v12 main_call0.v13 main_call0.v14 main_call0.v15 select,
    unary main_v6 main_v12 (broadcastInDim S2048x1x4 ![0, 2] bcast_S2048x4_S2048x1x4_0_2 : (⟨S2048x4, .i1⟩ : BufTy).Contents (Elt F) → (⟨S2048x1x4, .i1⟩ : BufTy).Contents (Elt F)),
    unary main_v12 main_v13 (uitofp .f32 : (⟨S2048x1x4, .i1⟩ : BufTy).Contents (Elt F) → (⟨S2048x1x4, .f32⟩ : BufTy).Contents (Elt F)),
    unary main_v13 main_v14 (broadcastInDim S2048x16x4 ![0, 1, 2] bcast_S2048x1x4_S2048x16x4_0_1_2 : (⟨S2048x1x4, .f32⟩ : BufTy).Contents (Elt F) → (⟨S2048x16x4, .f32⟩ : BufTy).Contents (Elt F)),
    binary main_v11 main_v14 main_v15 (mulf : (⟨S2048x16x4, .f32⟩ : BufTy).Contents (Elt F) → (⟨S2048x16x4, .f32⟩ : BufTy).Contents (Elt F) → (⟨S2048x16x4, .f32⟩ : BufTy).Contents (Elt F)),
    nullary main_cst (constant S_ .f32 0x00000000#32),
    unary main_cst main_v16 (broadcastInDim S2048x16x16 ![] bcast_S_S2048x16x16 : (⟨S_, .f32⟩ : BufTy).Contents (Elt F) → (⟨S2048x16x16, .f32⟩ : BufTy).Contents (Elt F)),
    unary main_v15 main_v17 (Host.negf : (⟨S2048x16x4, .f32⟩ : BufTy).Contents (Elt F) → (⟨S2048x16x4, .f32⟩ : BufTy).Contents (Elt F)),
    nullary main_c_2 (constantI S_ 32 0#32),
    unary main_c_2 main_v18 (broadcastInDim S1 ![] bcast_S_S1 : (⟨S_, .i32⟩ : BufTy).Contents (Elt F) → (⟨S1, .i32⟩ : BufTy).Contents (Elt F)),
    ternary main_v16 main_v18 main_v17 main_v19 ((fun x i u => Host.scatter scatter_S2048x16x16_S1_S2048x16x4_012_n_2_0 (fun _ b => b) x i u) : (⟨S2048x16x16, .f32⟩ : BufTy).Contents (Elt F) → (⟨S1, .i32⟩ : BufTy).Contents (Elt F) → (⟨S2048x16x4, .f32⟩ : BufTy).Contents (Elt F) → (⟨S2048x16x16, .f32⟩ : BufTy).Contents (Elt F)),
    unary main_arg1 main_v20 (Host.negf : (⟨S2048x16x2048, .f32⟩ : BufTy).Contents (Elt F) → (⟨S2048x16x2048, .f32⟩ : BufTy).Contents (Elt F)),
    unary main_v20 main_v21 (Host.exp : (⟨S2048x16x2048, .f32⟩ : BufTy).Contents (Elt F) → (⟨S2048x16x2048, .f32⟩ : BufTy).Contents (Elt F)),
    nullary main_cst_3 (constant S_ .f32 0x3F800000#32),
    unary main_cst_3 main_v22 (broadcastInDim S2048x16x2048 ![] bcast_S_S2048x16x2048 : (⟨S_, .f32⟩ : BufTy).Contents (Elt F) → (⟨S2048x16x2048, .f32⟩ : BufTy).Contents (Elt F)),
    binary main_v22 main_v21 main_v23 (addf : (⟨S2048x16x2048, .f32⟩ : BufTy).Contents (Elt F) → (⟨S2048x16x2048, .f32⟩ : BufTy).Contents (Elt F) → (⟨S2048x16x2048, .f32⟩ : BufTy).Contents (Elt F)),
    nullary main_cst_4 (constant S_ .f32 0x3F800000#32),
    unary main_cst_4 main_v24 (broadcastInDim S2048x16x2048 ![] bcast_S_S2048x16x2048 : (⟨S_, .f32⟩ : BufTy).Contents (Elt F) → (⟨S2048x16x2048, .f32⟩ : BufTy).Contents (Elt F)),
    binary main_v24 main_v23 main_v25 (Host.divf : (⟨S2048x16x2048, .f32⟩ : BufTy).Contents (Elt F) → (⟨S2048x16x2048, .f32⟩ : BufTy).Contents (Elt F) → (⟨S2048x16x2048, .f32⟩ : BufTy).Contents (Elt F)),
    binary main_v25 main_arg2 main_v26 ((fun l r => Host.dotGeneral dot_S2048x16x2048_S2048x16x2048_S2048x16x16_2_2_1_1_0_0 none l r) : (⟨S2048x16x2048, .f32⟩ : BufTy).Contents (Elt F) → (⟨S2048x16x2048, .f32⟩ : BufTy).Contents (Elt F) → (⟨S2048x16x16, .f32⟩ : BufTy).Contents (Elt F)),
    nullary main_cst_5 (constant S_ .f32 0x40000000#32),
    unary main_cst_5 main_v27 (broadcastInDim S2048x16x16 ![] bcast_S_S2048x16x16 : (⟨S_, .f32⟩ : BufTy).Contents (Elt F) → (⟨S2048x16x16, .f32⟩ : BufTy).Contents (Elt F)),
    binary main_v27 main_v26 main_v28 (mulf : (⟨S2048x16x16, .f32⟩ : BufTy).Contents (Elt F) → (⟨S2048x16x16, .f32⟩ : BufTy).Contents (Elt F) → (⟨S2048x16x16, .f32⟩ : BufTy).Contents (Elt F)),
    nullary main_cst_6 (constant S_ .f32 0x00000000#32),
    binary main_v25 main_cst_6 main_v29 ((fun x v => Host.reduceAdd x v reducesTo_S2048x16x2048_S2048x16_d2 h_S_) : (⟨S2048x16x2048, .f32⟩ : BufTy).Contents (Elt F) → (⟨S_, .f32⟩ : BufTy).Contents (Elt F) → (⟨S2048x16, .f32⟩ : BufTy).Contents (Elt F)),
    unary main_v29 main_v30 (broadcastInDim S2048x16x1 ![0, 1] bcast_S2048x16_S2048x16x1_0_1 : (⟨S2048x16, .f32⟩ : BufTy).Contents (Elt F) → (⟨S2048x16x1, .f32⟩ : BufTy).Contents (Elt F)),
    nullary main_cst_7 (constant S_ .f32 0x00000000#32),
    binary main_arg2 main_cst_7 main_v31 ((fun x v => Host.reduceAdd x v reducesTo_S2048x16x2048_S2048x16_d2 h_S_) : (⟨S2048x16x2048, .f32⟩ : BufTy).Contents (Elt F) → (⟨S_, .f32⟩ : BufTy).Contents (Elt F) → (⟨S2048x16, .f32⟩ : BufTy).Contents (Elt F)),
    unary main_v31 main_v32 (broadcastInDim S2048x1x16 ![0, 2] bcast_S2048x16_S2048x1x16_0_2 : (⟨S2048x16, .f32⟩ : BufTy).Contents (Elt F) → (⟨S2048x1x16, .f32⟩ : BufTy).Contents (Elt F)),
    unary main_v30 main_v33 (broadcastInDim S2048x16x16 ![0, 1, 2] bcast_S2048x16x1_S2048x16x16_0_1_2 : (⟨S2048x16x1, .f32⟩ : BufTy).Contents (Elt F) → (⟨S2048x16x16, .f32⟩ : BufTy).Contents (Elt F)),
    unary main_v32 main_v34 (broadcastInDim S2048x16x16 ![0, 1, 2] bcast_S2048x1x16_S2048x16x16_0_1_2 : (⟨S2048x1x16, .f32⟩ : BufTy).Contents (Elt F) → (⟨S2048x16x16, .f32⟩ : BufTy).Contents (Elt F)),
    binary main_v33 main_v34 main_v35 (addf : (⟨S2048x16x16, .f32⟩ : BufTy).Contents (Elt F) → (⟨S2048x16x16, .f32⟩ : BufTy).Contents (Elt F) → (⟨S2048x16x16, .f32⟩ : BufTy).Contents (Elt F)),
    nullary main_cst_8 (constant S_ .f32 0x3F800000#32),
    unary main_cst_8 main_v36 (broadcastInDim S2048x16x16 ![] bcast_S_S2048x16x16 : (⟨S_, .f32⟩ : BufTy).Contents (Elt F) → (⟨S2048x16x16, .f32⟩ : BufTy).Contents (Elt F)),
    binary main_v28 main_v36 main_v37 (addf : (⟨S2048x16x16, .f32⟩ : BufTy).Contents (Elt F) → (⟨S2048x16x16, .f32⟩ : BufTy).Contents (Elt F) → (⟨S2048x16x16, .f32⟩ : BufTy).Contents (Elt F)),
    nullary main_cst_9 (constant S_ .f32 0x3F800000#32),
    unary main_cst_9 main_v38 (broadcastInDim S2048x16x16 ![] bcast_S_S2048x16x16 : (⟨S_, .f32⟩ : BufTy).Contents (Elt F) → (⟨S2048x16x16, .f32⟩ : BufTy).Contents (Elt F)),
    binary main_v35 main_v38 main_v39 (addf : (⟨S2048x16x16, .f32⟩ : BufTy).Contents (Elt F) → (⟨S2048x16x16, .f32⟩ : BufTy).Contents (Elt F) → (⟨S2048x16x16, .f32⟩ : BufTy).Contents (Elt F)),
    binary main_v37 main_v39 main_v40 (Host.divf : (⟨S2048x16x16, .f32⟩ : BufTy).Contents (Elt F) → (⟨S2048x16x16, .f32⟩ : BufTy).Contents (Elt F) → (⟨S2048x16x16, .f32⟩ : BufTy).Contents (Elt F)),
    nullary main_cst_10 (constant S_ .f32 0x3F800000#32),
    unary main_cst_10 main_v41 (broadcastInDim S2048x16x16 ![] bcast_S_S2048x16x16 : (⟨S_, .f32⟩ : BufTy).Contents (Elt F) → (⟨S2048x16x16, .f32⟩ : BufTy).Contents (Elt F)),
    binary main_v41 main_v40 main_v42 (subf : (⟨S2048x16x16, .f32⟩ : BufTy).Contents (Elt F) → (⟨S2048x16x16, .f32⟩ : BufTy).Contents (Elt F) → (⟨S2048x16x16, .f32⟩ : BufTy).Contents (Elt F)),
    unary main_arg1 main_v43 (Host.negf : (⟨S2048x16x2048, .f32⟩ : BufTy).Contents (Elt F) → (⟨S2048x16x2048, .f32⟩ : BufTy).Contents (Elt F)),
    TRef.nullary main_call1.cst (constant S_ .f32 0x00000000#32),
    TRef.unary main_call1.cst main_call1.v0 (broadcastInDim S2048x16x2048 ![] bcast_S_S2048x16x2048),
    TRef.binary (TRef.of (T := ⟨S2048x16x2048, .f32⟩) main_v43) main_call1.v0 main_call1.v1 maximumf,
    TRef.unary main_call1.cst main_call1.v2 (broadcastInDim S2048x16x2048 ![] bcast_S_S2048x16x2048),
    TRef.binary (TRef.of (T := ⟨S2048x16x2048, .f32⟩) main_v43) main_call1.v2 main_call1.v3 subf,
    TRef.binary main_call1.v3 main_call1.v3 main_call1.v4 (cmpf .une),
    TRef.unary main_call1.cst main_call1.v5 (broadcastInDim S2048x16x2048 ![] bcast_S_S2048x16x2048),
    TRef.binary (TRef.of (T := ⟨S2048x16x2048, .f32⟩) main_v43) main_call1.v5 main_call1.v6 addf,
    TRef.unary main_call1.v3 main_call1.v7 Host.absf,
    TRef.unary main_call1.v7 main_call1.v8 Host.negf,
    TRef.unary main_call1.v8 main_call1.v9 Host.exp,
    TRef.unary main_call1.v9 main_call1.v10 Host.log1p,
    TRef.binary main_call1.v1 main_call1.v10 main_call1.v11 addf,
    TRef.ternary main_call1.v4 main_call1.v6 main_call1.v11 main_call1.v12 select,
    TRef.nullary main_call2.cst (constant S_ .f32 0x00000000#32),
    TRef.unary main_call2.cst main_call2.v0 (broadcastInDim S2048x16x2048 ![] bcast_S_S2048x16x2048),
    TRef.binary (TRef.of (T := ⟨S2048x16x2048, .f32⟩) main_arg1) main_call2.v0 main_call2.v1 maximumf,
    TRef.unary main_call2.cst main_call2.v2 (broadcastInDim S2048x16x2048 ![] bcast_S_S2048x16x2048),
    TRef.binary (TRef.of (T := ⟨S2048x16x2048, .f32⟩) main_arg1) main_call2.v2 main_call2.v3 subf,
    TRef.binary main_call2.v3 main_call2.v3 main_call2.v4 (cmpf .une),
    TRef.unary main_call2.cst main_call2.v5 (broadcastInDim S2048x16x2048 ![] bcast_S_S2048x16x2048),
    TRef.binary (TRef.of (T := ⟨S2048x16x2048, .f32⟩) main_arg1) main_call2.v5 main_call2.v6 addf,
    TRef.unary main_call2.v3 main_call2.v7 Host.absf,
    TRef.unary main_call2.v7 main_call2.v8 Host.negf,
    TRef.unary main_call2.v8 main_call2.v9 Host.exp,
    TRef.unary main_call2.v9 main_call2.v10 Host.log1p,
    TRef.binary main_call2.v1 main_call2.v10 main_call2.v11 addf,
    TRef.ternary main_call2.v4 main_call2.v6 main_call2.v11 main_call2.v12 select,
    binary main_v44 main_arg2 main_v46 ((fun l r => Host.dotGeneral dot_S2048x16x2048_S2048x16x2048_S2048x16x16_2_2_1_1_0_0 none l r) : (⟨S2048x16x2048, .f32⟩ : BufTy).Contents (Elt F) → (⟨S2048x16x2048, .f32⟩ : BufTy).Contents (Elt F) → (⟨S2048x16x16, .f32⟩ : BufTy).Contents (Elt F)),
    nullary main_cst_11 (constant S_ .f32 0x3F800000#32),
    unary main_cst_11 main_v47 (broadcastInDim S2048x16x2048 ![] bcast_S_S2048x16x2048 : (⟨S_, .f32⟩ : BufTy).Contents (Elt F) → (⟨S2048x16x2048, .f32⟩ : BufTy).Contents (Elt F)),
    binary main_v47 main_arg2 main_v48 (subf : (⟨S2048x16x2048, .f32⟩ : BufTy).Contents (Elt F) → (⟨S2048x16x2048, .f32⟩ : BufTy).Contents (Elt F) → (⟨S2048x16x2048, .f32⟩ : BufTy).Contents (Elt F)),
    binary main_v45 main_v48 main_v49 ((fun l r => Host.dotGeneral dot_S2048x16x2048_S2048x16x2048_S2048x16x16_2_2_1_1_0_0 none l r) : (⟨S2048x16x2048, .f32⟩ : BufTy).Contents (Elt F) → (⟨S2048x16x2048, .f32⟩ : BufTy).Contents (Elt F) → (⟨S2048x16x16, .f32⟩ : BufTy).Contents (Elt F)),
    binary main_v46 main_v49 main_v50 (addf : (⟨S2048x16x16, .f32⟩ : BufTy).Contents (Elt F) → (⟨S2048x16x16, .f32⟩ : BufTy).Contents (Elt F) → (⟨S2048x16x16, .f32⟩ : BufTy).Contents (Elt F)),
    nullary main_cst_12 (constant S_ .f32 0x45000000#32),
    unary main_cst_12 main_v51 (broadcastInDim S2048x16x16 ![] bcast_S_S2048x16x16 : (⟨S_, .f32⟩ : BufTy).Contents (Elt F) → (⟨S2048x16x16, .f32⟩ : BufTy).Contents (Elt F)),
    binary main_v50 main_v51 main_v52 (Host.divf : (⟨S2048x16x16, .f32⟩ : BufTy).Contents (Elt F) → (⟨S2048x16x16, .f32⟩ : BufTy).Contents (Elt F) → (⟨S2048x16x16, .f32⟩ : BufTy).Contents (Elt F)),
    nullary main_cst_13 (constant S_ .f32 0x3F800000#32),
    unary main_cst_13 main_v53 (broadcastInDim S2048x16x2048 ![] bcast_S_S2048x16x2048 : (⟨S_, .f32⟩ : BufTy).Contents (Elt F) → (⟨S2048x16x2048, .f32⟩ : BufTy).Contents (Elt F)),
    binary main_v53 main_v25 main_v54 (subf : (⟨S2048x16x2048, .f32⟩ : BufTy).Contents (Elt F) → (⟨S2048x16x2048, .f32⟩ : BufTy).Contents (Elt F) → (⟨S2048x16x2048, .f32⟩ : BufTy).Contents (Elt F)),
    nullary main_cst_14 (constant S_ .f32 0x40000000#32),
    unary main_cst_14 main_v55 (broadcastInDim S2048x16x2048 ![] bcast_S_S2048x16x2048 : (⟨S_, .f32⟩ : BufTy).Contents (Elt F) → (⟨S2048x16x2048, .f32⟩ : BufTy).Contents (Elt F)),
    binary main_v54 main_v55 main_v56 (Host.powf : (⟨S2048x16x2048, .f32⟩ : BufTy).Contents (Elt F) → (⟨S2048x16x2048, .f32⟩ : BufTy).Contents (Elt F) → (⟨S2048x16x2048, .f32⟩ : BufTy).Contents (Elt F)),
    binary main_v56 main_v44 main_v57 (mulf : (⟨S2048x16x2048, .f32⟩ : BufTy).Contents (Elt F) → (⟨S2048x16x2048, .f32⟩ : BufTy).Contents (Elt F) → (⟨S2048x16x2048, .f32⟩ : BufTy).Contents (Elt F)),
    nullary main_cst_15 (constant S_ .f32 0x40000000#32),
    unary main_cst_15 main_v58 (broadcastInDim S2048x16x2048 ![] bcast_S_S2048x16x2048 : (⟨S_, .f32⟩ : BufTy).Contents (Elt F) → (⟨S2048x16x2048, .f32⟩ : BufTy).Contents (Elt F)),
    binary main_v25 main_v58 main_v59 (Host.powf : (⟨S2048x16x2048, .f32⟩ : BufTy).Contents (Elt F) → (⟨S2048x16x2048, .f32⟩ : BufTy).Contents (Elt F) → (⟨S2048x16x2048, .f32⟩ : BufTy).Contents (Elt F)),
    binary main_v59 main_v45 main_v60 (mulf : (⟨S2048x16x2048, .f32⟩ : BufTy).Contents (Elt F) → (⟨S2048x16x2048, .f32⟩ : BufTy).Contents (Elt F) → (⟨S2048x16x2048, .f32⟩ : BufTy).Contents (Elt F)),
    binary main_v57 main_arg2 main_v61 ((fun l r => Host.dotGeneral dot_S2048x16x2048_S2048x16x2048_S2048x16x16_2_2_1_1_0_0 none l r) : (⟨S2048x16x2048, .f32⟩ : BufTy).Contents (Elt F) → (⟨S2048x16x2048, .f32⟩ : BufTy).Contents (Elt F) → (⟨S2048x16x16, .f32⟩ : BufTy).Contents (Elt F)),
    nullary main_cst_16 (constant S_ .f32 0x3F800000#32),
    unary main_cst_16 main_v62 (broadcastInDim S2048x16x2048 ![] bcast_S_S2048x16x2048 : (⟨S_, .f32⟩ : BufTy).Contents (Elt F) → (⟨S2048x16x2048, .f32⟩ : BufTy).Contents (Elt F)),
    binary main_v62 main_arg2 main_v63 (subf : (⟨S2048x16x2048, .f32⟩ : BufTy).Contents (Elt F) → (⟨S2048x16x2048, .f32⟩ : BufTy).Contents (Elt F) → (⟨S2048x16x2048, .f32⟩ : BufTy).Contents (Elt F)),
    binary main_v60 main_v63 main_v64 ((fun l r => Host.dotGeneral dot_S2048x16x2048_S2048x16x2048_S2048x16x16_2_2_1_1_0_0 none l r) : (⟨S2048x16x2048, .f32⟩ : BufTy).Contents (Elt F) → (⟨S2048x16x2048, .f32⟩ : BufTy).Contents (Elt F) → (⟨S2048x16x16, .f32⟩ : BufTy).Contents (Elt F)),
    binary main_v61 main_v64 main_v65 (addf : (⟨S2048x16x16, .f32⟩ : BufTy).Contents (Elt F) → (⟨S2048x16x16, .f32⟩ : BufTy).Contents (Elt F) → (⟨S2048x16x16, .f32⟩ : BufTy).Contents (Elt F)),
    nullary main_cst_17 (constant S_ .f32 0x45000000#32),
    unary main_cst_17 main_v66 (broadcastInDim S2048x16x16 ![] bcast_S_S2048x16x16 : (⟨S_, .f32⟩ : BufTy).Contents (Elt F) → (⟨S2048x16x16, .f32⟩ : BufTy).Contents (Elt F)),
    binary main_v65 main_v66 main_v67 (Host.divf : (⟨S2048x16x16, .f32⟩ : BufTy).Contents (Elt F) → (⟨S2048x16x16, .f32⟩ : BufTy).Contents (Elt F) → (⟨S2048x16x16, .f32⟩ : BufTy).Contents (Elt F)),
    unary main_v1 main_v68 (broadcastInDim S2048x16x1 ![0, 1] bcast_S2048x16_S2048x16x1_0_1 : (⟨S2048x16, .i1⟩ : BufTy).Contents (Elt F) → (⟨S2048x16x1, .i1⟩ : BufTy).Contents (Elt F)),
    unary main_v68 main_v69 (uitofp .f32 : (⟨S2048x16x1, .i1⟩ : BufTy).Contents (Elt F) → (⟨S2048x16x1, .f32⟩ : BufTy).Contents (Elt F)),
    unary main_v69 main_v70 (broadcastInDim S2048x16x4 ![0, 1, 2] bcast_S2048x16x1_S2048x16x4_0_1_2 : (⟨S2048x16x1, .f32⟩ : BufTy).Contents (Elt F) → (⟨S2048x16x4, .f32⟩ : BufTy).Contents (Elt F)),
    binary main_arg4 main_v70 main_v71 (mulf : (⟨S2048x16x4, .f32⟩ : BufTy).Contents (Elt F) → (⟨S2048x16x4, .f32⟩ : BufTy).Contents (Elt F) → (⟨S2048x16x4, .f32⟩ : BufTy).Contents (Elt F)),
    unary main_arg3 main_v72 (broadcastInDim S2048x16x1x4 ![0, 1, 3] bcast_S2048x16x4_S2048x16x1x4_0_1_3 : (⟨S2048x16x4, .f32⟩ : BufTy).Contents (Elt F) → (⟨S2048x16x1x4, .f32⟩ : BufTy).Contents (Elt F)),
    unary main_v71 main_v73 (broadcastInDim S2048x1x16x4 ![0, 2, 3] bcast_S2048x16x4_S2048x1x16x4_0_2_3 : (⟨S2048x16x4, .f32⟩ : BufTy).Contents (Elt F) → (⟨S2048x1x16x4, .f32⟩ : BufTy).Contents (Elt F)),
    unary main_v72 main_v74 (broadcastInDim S2048x16x16x4 ![0, 1, 2, 3] bcast_S2048x16x1x4_S2048x16x16x4_0_1_2_3 : (⟨S2048x16x1x4, .f32⟩ : BufTy).Contents (Elt F) → (⟨S2048x16x16x4, .f32⟩ : BufTy).Contents (Elt F)),
    unary main_v73 main_v75 (broadcastInDim S2048x16x16x4 ![0, 1, 2, 3] bcast_S2048x1x16x4_S2048x16x16x4_0_1_2_3 : (⟨S2048x1x16x4, .f32⟩ : BufTy).Contents (Elt F) → (⟨S2048x16x16x4, .f32⟩ : BufTy).Contents (Elt F)),
    binary main_v74 main_v75 main_v76 (subf : (⟨S2048x16x16x4, .f32⟩ : BufTy).Contents (Elt F) → (⟨S2048x16x16x4, .f32⟩ : BufTy).Contents (Elt F) → (⟨S2048x16x16x4, .f32⟩ : BufTy).Contents (Elt F)),
    unary main_v76 main_v77 (Host.absf : (⟨S2048x16x16x4, .f32⟩ : BufTy).Contents (Elt F) → (⟨S2048x16x16x4, .f32⟩ : BufTy).Contents (Elt F)),
    nullary main_cst_18 (constant S_ .f32 0x00000000#32),
    binary main_v77 main_cst_18 main_v78 ((fun x v => Host.reduceAdd x v reducesTo_S2048x16x16x4_S2048x16x16_d3 h_S_) : (⟨S2048x16x16x4, .f32⟩ : BufTy).Contents (Elt F) → (⟨S_, .f32⟩ : BufTy).Contents (Elt F) → (⟨S2048x16x16, .f32⟩ : BufTy).Contents (Elt F)),
    nullary main_cst_19 (constant S_ .f32 0x40800000#32),
    unary main_cst_19 main_v79 (broadcastInDim S2048x16x16 ![] bcast_S_S2048x16x16 : (⟨S_, .f32⟩ : BufTy).Contents (Elt F) → (⟨S2048x16x16, .f32⟩ : BufTy).Contents (Elt F)),
    binary main_v78 main_v79 main_v80 (Host.divf : (⟨S2048x16x16, .f32⟩ : BufTy).Contents (Elt F) → (⟨S2048x16x16, .f32⟩ : BufTy).Contents (Elt F) → (⟨S2048x16x16, .f32⟩ : BufTy).Contents (Elt F)),
    nullary main_cst_20 (constant S_ .f32 0x3F800000#32),
    unary main_cst_20 main_v81 (broadcastInDim S2048x16x16 ![] bcast_S_S2048x16x16 : (⟨S_, .f32⟩ : BufTy).Contents (Elt F) → (⟨S2048x16x16, .f32⟩ : BufTy).Contents (Elt F)),
    binary main_v81 main_v19 main_v82 (mulf : (⟨S2048x16x16, .f32⟩ : BufTy).Contents (Elt F) → (⟨S2048x16x16, .f32⟩ : BufTy).Contents (Elt F) → (⟨S2048x16x16, .f32⟩ : BufTy).Contents (Elt F)),
    nullary main_cst_21 (constant S_ .f32 0x3F800000#32),
    unary main_cst_21 main_v83 (broadcastInDim S2048x16x16 ![] bcast_S_S2048x16x16 : (⟨S_, .f32⟩ : BufTy).Contents (Elt F) → (⟨S2048x16x16, .f32⟩ : BufTy).Contents (Elt F)),
    binary main_v83 main_v42 main_v84 (mulf : (⟨S2048x16x16, .f32⟩ : BufTy).Contents (Elt F) → (⟨S2048x16x16, .f32⟩ : BufTy).Contents (Elt F) → (⟨S2048x16x16, .f32⟩ : BufTy).Contents (Elt F)),
    binary main_v82 main_v84 main_v85 (addf : (⟨S2048x16x16, .f32⟩ : BufTy).Contents (Elt F) → (⟨S2048x16x16, .f32⟩ : BufTy).Contents (Elt F) → (⟨S2048x16x16, .f32⟩ : BufTy).Contents (Elt F)),
    nullary main_cst_22 (constant S_ .f32 0x3F800000#32),
    unary main_cst_22 main_v86 (broadcastInDim S2048x16x16 ![] bcast_S_S2048x16x16 : (⟨S_, .f32⟩ : BufTy).Contents (Elt F) → (⟨S2048x16x16, .f32⟩ : BufTy).Contents (Elt F)),
    binary main_v86 main_v52 main_v87 (mulf : (⟨S2048x16x16, .f32⟩ : BufTy).Contents (Elt F) → (⟨S2048x16x16, .f32⟩ : BufTy).Contents (Elt F) → (⟨S2048x16x16, .f32⟩ : BufTy).Contents (Elt F)),
    binary main_v85 main_v87 main_v88 (addf : (⟨S2048x16x16, .f32⟩ : BufTy).Contents (Elt F) → (⟨S2048x16x16, .f32⟩ : BufTy).Contents (Elt F) → (⟨S2048x16x16, .f32⟩ : BufTy).Contents (Elt F)),
    nullary main_cst_23 (constant S_ .f32 0x3F800000#32),
    unary main_cst_23 main_v89 (broadcastInDim S2048x16x16 ![] bcast_S_S2048x16x16 : (⟨S_, .f32⟩ : BufTy).Contents (Elt F) → (⟨S2048x16x16, .f32⟩ : BufTy).Contents (Elt F)),
    binary main_v89 main_v67 main_v90 (mulf : (⟨S2048x16x16, .f32⟩ : BufTy).Contents (Elt F) → (⟨S2048x16x16, .f32⟩ : BufTy).Contents (Elt F) → (⟨S2048x16x16, .f32⟩ : BufTy).Contents (Elt F)),
    binary main_v88 main_v90 main_v91 (addf : (⟨S2048x16x16, .f32⟩ : BufTy).Contents (Elt F) → (⟨S2048x16x16, .f32⟩ : BufTy).Contents (Elt F) → (⟨S2048x16x16, .f32⟩ : BufTy).Contents (Elt F)),
    nullary main_cst_24 (constant S_ .f32 0x3F800000#32),
    unary main_cst_24 main_v92 (broadcastInDim S2048x16x16 ![] bcast_S_S2048x16x16 : (⟨S_, .f32⟩ : BufTy).Contents (Elt F) → (⟨S2048x16x16, .f32⟩ : BufTy).Contents (Elt F)),
    binary main_v92 main_v80 main_v93 (mulf : (⟨S2048x16x16, .f32⟩ : BufTy).Contents (Elt F) → (⟨S2048x16x16, .f32⟩ : BufTy).Contents (Elt F) → (⟨S2048x16x16, .f32⟩ : BufTy).Contents (Elt F)),
    binary main_v91 main_v93 main_v94 (addf : (⟨S2048x16x16, .f32⟩ : BufTy).Contents (Elt F) → (⟨S2048x16x16, .f32⟩ : BufTy).Contents (Elt F) → (⟨S2048x16x16, .f32⟩ : BufTy).Contents (Elt F)),
    nullary main_v95 (iotaInDim S16 32 0),
    unary main_v95 main_v96 (broadcastInDim S1x16 ![1] bcast_S16_S1x16_1 : (⟨S16, .i32⟩ : BufTy).Contents (Elt F) → (⟨S1x16, .i32⟩ : BufTy).Contents (Elt F)),
    unary main_v3 main_v97 (broadcastInDim S2048x1 ![0] bcast_S2048_S2048x1_0 : (⟨S2048, .i32⟩ : BufTy).Contents (Elt F) → (⟨S2048x1, .i32⟩ : BufTy).Contents (Elt F)),
    unary main_v96 main_v98 (broadcastInDim S2048x16 ![0, 1] bcast_S1x16_S2048x16_0_1 : (⟨S1x16, .i32⟩ : BufTy).Contents (Elt F) → (⟨S2048x16, .i32⟩ : BufTy).Contents (Elt F)),
    unary main_v97 main_v99 (broadcastInDim S2048x16 ![0, 1] bcast_S2048x1_S2048x16_0_1 : (⟨S2048x1, .i32⟩ : BufTy).Contents (Elt F) → (⟨S2048x16, .i32⟩ : BufTy).Contents (Elt F)),
    binary main_v98 main_v99 main_v100 (cmpi .slt : (⟨S2048x16, .i32⟩ : BufTy).Contents (Elt F) → (⟨S2048x16, .i32⟩ : BufTy).Contents (Elt F) → (⟨S2048x16, .i1⟩ : BufTy).Contents (Elt F)),
    unary main_v100 main_v101 (broadcastInDim S2048x1x16 ![0, 2] bcast_S2048x16_S2048x1x16_0_2 : (⟨S2048x16, .i1⟩ : BufTy).Contents (Elt F) → (⟨S2048x1x16, .i1⟩ : BufTy).Contents (Elt F)),
    nullary main_cst_25 (constant S_ .f32 0x7FC00000#32),
    TRef.unary (TRef.of (T := ⟨S_, .f32⟩) main_cst_25) main_call3.v0 id,
    TRef.unary (TRef.of (T := ⟨S2048x1x16, .i1⟩) main_v101) main_call3.v1 (broadcastInDim S2048x16x16 ![0, 1, 2] bcast_S2048x1x16_S2048x16x16_0_1_2),
    TRef.unary main_call3.v0 main_call3.v2 (broadcastInDim S2048x16x16 ![] bcast_S_S2048x16x16),
    TRef.ternary main_call3.v1 (TRef.of (T := ⟨S2048x16x16, .f32⟩) main_v94) main_call3.v2 main_call3.v3 select,
    unary main_v3 main_v103 (broadcastInDim S2048x1 ![0] bcast_S2048_S2048x1_0 : (⟨S2048, .i32⟩ : BufTy).Contents (Elt F) → (⟨S2048x1, .i32⟩ : BufTy).Contents (Elt F)) ]

set_option maxRecDepth 8192 in
set_option maxHeartbeats 4000000 in
/-- @main is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., unary_bufs_sub .., nullary_bufs_sub .., binary_bufs_sub ..,
    unary_bufs_sub .., nullary_bufs_sub .., unary_bufs_sub .., binary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., ternary_bufs_sub .., reshape_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..,
    unary_bufs_sub .., unary_bufs_sub .., unary_bufs_sub .., binary_bufs_sub .., nullary_bufs_sub .., unary_bufs_sub ..,
    unary_bufs_sub .., nullary_bufs_sub .., unary_bufs_sub .., ternary_bufs_sub .., unary_bufs_sub .., unary_bufs_sub ..,
    nullary_bufs_sub .., unary_bufs_sub .., binary_bufs_sub .., nullary_bufs_sub .., unary_bufs_sub .., binary_bufs_sub ..,
    binary_bufs_sub .., nullary_bufs_sub .., unary_bufs_sub .., binary_bufs_sub .., nullary_bufs_sub .., binary_bufs_sub ..,
    unary_bufs_sub .., nullary_bufs_sub .., binary_bufs_sub .., unary_bufs_sub .., unary_bufs_sub .., unary_bufs_sub ..,
    binary_bufs_sub .., nullary_bufs_sub .., unary_bufs_sub .., binary_bufs_sub .., nullary_bufs_sub .., unary_bufs_sub ..,
    binary_bufs_sub .., binary_bufs_sub .., nullary_bufs_sub .., unary_bufs_sub .., binary_bufs_sub .., unary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub .., nullary_bufs_sub .., unary_bufs_sub .., binary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., ternary_bufs_sub .., binary_bufs_sub .., nullary_bufs_sub ..,
    unary_bufs_sub .., binary_bufs_sub .., binary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., binary_bufs_sub .., nullary_bufs_sub .., unary_bufs_sub .., binary_bufs_sub .., binary_bufs_sub ..,
    binary_bufs_sub .., nullary_bufs_sub .., unary_bufs_sub .., binary_bufs_sub .., binary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., unary_bufs_sub .., unary_bufs_sub .., binary_bufs_sub ..,
    unary_bufs_sub .., nullary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    binary_bufs_sub .., nullary_bufs_sub .., unary_bufs_sub .., binary_bufs_sub .., binary_bufs_sub .., nullary_bufs_sub ..,
    unary_bufs_sub .., binary_bufs_sub .., binary_bufs_sub .., nullary_bufs_sub .., unary_bufs_sub .., binary_bufs_sub ..,
    binary_bufs_sub .., nullary_bufs_sub .., unary_bufs_sub .., unary_bufs_sub .., unary_bufs_sub .., unary_bufs_sub ..,
    binary_bufs_sub .., unary_bufs_sub .., nullary_bufs_sub .., unary_bufs_sub .., unary_bufs_sub .., unary_bufs_sub ..,
    ternary_bufs_sub .., unary_bufs_sub ..⟩

end Line

end Cert.RefSide

end
-- ==== Proof.RefTerms.lean ====
/-
  The reference's values, named.  Each definition is the exact composition of tensor operations by which
  the reference program reaches one of its intermediate arrays from its arguments: x0 the class
  probabilities, x1 the mask logits, x2 the mask targets, x3 / x4 the predicted and target boxes, x5 the
  object classes.  Constants are the broadcast binary32 words the program spells.
-/
import proofs.«122681_j57569741635899_1_alg».proof.Proof.Gen.ReferenceIdeal
import Idealize.ShloMosaic.PureOps.Ideal

noncomputable section

namespace Cert.RefSide

open Cert.ReferenceIdeal Cert.ReferenceIdeal.Gen Idealize.ShloMosaic

/-- The arrays' types at the ideal values. -/
abbrev Logits : Type := FVec Ideal S2048x16x2048 .f32
abbrev Cost : Type := FVec Ideal S2048x16x16 .f32
abbrev Boxes : Type := FVec Ideal S2048x16x4 .f32
abbrev Classes : Type := IVec S2048x16 32

/-! ## Constants -/

/-- The word w at every position of a [2048,16,2048] array. -/
def fill3 (w : BitVec 32) : Logits :=
  broadcastInDim S2048x16x2048 ![] bcast_S_S2048x16x2048 (constant (F := Ideal) S_ .f32 w)
/-- The word w at every position of a [2048,16,16] array. -/
def fillO (w : BitVec 32) : Cost :=
  broadcastInDim S2048x16x16 ![] bcast_S_S2048x16x16 (constant (F := Ideal) S_ .f32 w)

def zeros3 : Logits := fill3 0x00000000#32
def ones3 : Logits := fill3 0x3F800000#32
def twos3 : Logits := fill3 0x40000000#32
/-- 1.0 at every position of the cost array. -/
def ones : Cost := broadcastInDim S2048x16x16 ![] bcast_S_S2048x16x16 (constant (F := Ideal) S_ .f32 0x3F800000#32)

/-! ## The element-wise pieces of the mask terms -/

/-- The sigmoid of the logits, as 1 / (1 + exp(-x)). -/
def prob (x1 : Logits) : Logits := Host.divf ones3 (addf ones3 (Host.exp (Host.negf x1)))

/-- The outlined softplus: a select on "v - 0 differs from itself" between v + 0 and
    max(v, 0) + log1p(exp(-|v - 0|)). -/
def softplusOf (v : Logits) : Logits :=
  select (cmpf .une (subf v zeros3) (subf v zeros3)) (addf v zeros3)
    (addf (maximumf v zeros3) (Host.log1p (Host.exp (Host.negf (Host.absf (subf v zeros3))))))

/-- softplus(-x): the positive-class cross entropy per position. -/
def pos (x1 : Logits) : Logits := softplusOf (Host.negf x1)
/-- softplus(x): the negative-class cross entropy per position. -/
def neg (x1 : Logits) : Logits := softplusOf x1
/-- 1 - y. -/
def oneMinus (x2 : Logits) : Logits := subf ones3 x2

/-- The contraction over the positions: out[b,n,m] = sum_l L[b,n,l] * R[b,m,l]. -/
def dot (L R : Logits) : Cost :=
  Host.dotGeneral dot_S2048x16x2048_S2048x16x2048_S2048x16x16_2_2_1_1_0_0 none L R

/-- The sum over the positions: out[b,n] = 0 + sum_l x[b,n,l]. -/
def rowSum (x : Logits) : FVec Ideal S2048x16 .f32 :=
  Host.reduceAdd x (constant (F := Ideal) S_ .f32 0x00000000#32) reducesTo_S2048x16x2048_S2048x16_d2 h_S_

/-- A [2048,16] array along the prediction rows: out[b,n,m] = r[b,n]. -/
def alongN (r : FVec Ideal S2048x16 .f32) : Cost :=
  broadcastInDim S2048x16x16 ![0, 1, 2] bcast_S2048x16x1_S2048x16x16_0_1_2
    (broadcastInDim S2048x16x1 ![0, 1] bcast_S2048x16_S2048x16x1_0_1 r)
/-- A [2048,16] array along the target rows: out[b,n,m] = r[b,m]. -/
def alongM (r : FVec Ideal S2048x16 .f32) : Cost :=
  broadcastInDim S2048x16x16 ![0, 1, 2] bcast_S2048x1x16_S2048x16x16_0_1_2
    (broadcastInDim S2048x1x16 ![0, 2] bcast_S2048x16_S2048x1x16_0_2 r)

/-! ## The three mask terms -/

/-- The dice term: 1 - (2 * <P, T> + 1) / ((sum P + sum T) + 1). -/
def dice (x1 x2 : Logits) : Cost :=
  subf (fillO 0x3F800000#32)
    (Host.divf (addf (mulf (fillO 0x40000000#32) (dot (prob x1) x2)) (fillO 0x3F800000#32))
      (addf (addf (alongN (rowSum (prob x1))) (alongM (rowSum x2))) (fillO 0x3F800000#32)))

/-- The cross-entropy term: (<pos, T> + <neg, 1 - T>) / 2048. -/
def ce (x1 x2 : Logits) : Cost :=
  Host.divf (addf (dot (pos x1) x2) (dot (neg x1) (oneMinus x2))) (fillO 0x45000000#32)

/-- The focal term: (<(1 - P)^2 * pos, T> + <P^2 * neg, 1 - T>) / 2048. -/
def focal (x1 x2 : Logits) : Cost :=
  Host.divf (addf (dot (mulf (Host.powf (subf ones3 (prob x1)) twos3) (pos x1)) x2)
      (dot (mulf (Host.powf (prob x1) twos3) (neg x1)) (oneMinus x2))) (fillO 0x45000000#32)

/-! ## The object-validity masks and the class cost -/

/-- valid[b,m] = (class[b,m] != 4), an i1 array. -/
def validObj (x5 : Classes) : IVec S2048x16 1 :=
  cmpi .ne x5 (broadcastInDim S2048x16 ![] bcast_S_S2048x16 (constantI S_ 32 4#32))

/-- lengths[b] = 0 + sum_m valid[b,m]. -/
def lengths (x5 : Classes) : IVec S2048 32 :=
  Host.reduce IntOp.addi (extui 32 (validObj x5) natLt_1_32) (constantI S_ 32 0#32) reducesTo_S2048x16_S2048_d1 h_S_

/-- The first four target classes of each batch element. -/
def clsTgt (x5 : Classes) : IVec S2048x4 32 := extractStridedSlice S2048x4 ![0, 0] x5 slices_S2048x16_S2048x4_0_0
/-- Which of them are real classes. -/
def vmask (x5 : Classes) : IVec S2048x4 1 :=
  cmpi .ne (clsTgt x5) (broadcastInDim S2048x4 ![] bcast_S_S2048x4 (constantI S_ 32 4#32))
/-- The gather index: the class where real, 0 elsewhere, along the prediction rows. -/
def gidx (x5 : Classes) : IVec S2048x16x4 32 :=
  broadcastInDim S2048x16x4 ![0, 1, 2] bcast_S2048x1x4_S2048x16x4_0_1_2
    (broadcastInDim S2048x1x4 ![0, 2] bcast_S2048x4_S2048x1x4_0_2 (muli (clsTgt x5) (extui 32 (vmask x5) natLt_1_32)))

/-- The outlined take_along_axis: negative indices wrapped by the axis size 5, the gather, and NaN where the
    wrapped index is outside [0, 4]. -/
def wrapped (i : IVec S2048x16x4 32) : IVec S2048x16x4x1 32 :=
  shapeCast S2048x16x4x1
    (select (cmpi .slt i (broadcastInDim S2048x16x4 ![] bcast_S_S2048x16x4 (constantI S_ 32 0#32)))
      (addi i (broadcastInDim S2048x16x4 ![] bcast_S_S2048x16x4 (constantI S_ 32 5#32))) i)
    shapeCasts_S2048x16x4_S2048x16x4x1

def inRange (j : IVec S2048x16x4x1 32) : IVec S2048x16x4 1 :=
  Host.reduce IntOp.andi
    (andi (cmpi .sge j (broadcastInDim S2048x16x4x1 ![] bcast_S_S2048x16x4x1 (constantI S_ 32 0#32)))
      (cmpi .sle j (broadcastInDim S2048x16x4x1 ![0, 1, 2, 3] bcast_S1x1x1x1_S2048x16x4x1_0_1_2_3
        (broadcastInDim S1x1x1x1 ![3] bcast_S1_S1x1x1x1_3 (constantI S1 32 4#32)))))
    (constantI S_ 1 1#1) reducesTo_S2048x16x4x1_S2048x16x4_d3 h_S_

def takeAlong (x0 : FVec Ideal S2048x16x5 .f32) (i : IVec S2048x16x4 32) : Boxes :=
  select (inRange (wrapped i))
    (Host.gather gather_S2048x16x5_S2048x16x4x1_S2048x16x4_n_2_01_01_2_3_111 x0 (wrapped i))
    (broadcastInDim S2048x16x4 ![] bcast_S_S2048x16x4 (constant (F := Ideal) S_ .f32 0x7FC00000#32))

/-- The class cost: minus the gathered probability where the target class is real, written into the
    first four columns of a zero array. -/
def cls (x0 : FVec Ideal S2048x16x5 .f32) (x5 : Classes) : Cost :=
  Host.scatter scatter_S2048x16x16_S1_S2048x16x4_012_n_2_0 (fun _ b => b)
    (broadcastInDim S2048x16x16 ![] bcast_S_S2048x16x16 (constant (F := Ideal) S_ .f32 0x00000000#32))
    (broadcastInDim S1 ![] bcast_S_S1 (constantI S_ 32 0#32))
    (Host.negf (mulf (takeAlong x0 (gidx x5))
      (broadcastInDim S2048x16x4 ![0, 1, 2] bcast_S2048x1x4_S2048x16x4_0_1_2
        (uitofp (F := Ideal) .f32 (broadcastInDim S2048x1x4 ![0, 2] bcast_S2048x4_S2048x1x4_0_2 (vmask x5))))))

/-! ## The box term -/

/-- The mean absolute box error, the target boxes zeroed for invalid objects. -/
def mae (x3 x4 : Boxes) (x5 : Classes) : Cost :=
  Host.divf
    (Host.reduceAdd
      (Host.absf (subf
        (broadcastInDim S2048x16x16x4 ![0, 1, 2, 3] bcast_S2048x16x1x4_S2048x16x16x4_0_1_2_3
          (broadcastInDim S2048x16x1x4 ![0, 1, 3] bcast_S2048x16x4_S2048x16x1x4_0_1_3 x3))
        (broadcastInDim S2048x16x16x4 ![0, 1, 2, 3] bcast_S2048x1x16x4_S2048x16x16x4_0_1_2_3
          (broadcastInDim S2048x1x16x4 ![0, 2, 3] bcast_S2048x16x4_S2048x1x16x4_0_2_3
            (mulf x4 (broadcastInDim S2048x16x4 ![0, 1, 2] bcast_S2048x16x1_S2048x16x4_0_1_2
              (uitofp (F := Ideal) .f32 (broadcastInDim S2048x16x1 ![0, 1] bcast_S2048x16_S2048x16x1_0_1 (validObj x5)))))))))
      (constant (F := Ideal) S_ .f32 0x00000000#32) reducesTo_S2048x16x16x4_S2048x16x16_d3 h_S_)
    (fillO 0x40800000#32)

/-! ## The column mask and the results -/

/-- colMask[b,n,m] = (m < lengths[b]), an i1 array. -/
def colMask (x5 : Classes) : IVec S2048x16x16 1 :=
  broadcastInDim S2048x16x16 ![0, 1, 2] bcast_S2048x1x16_S2048x16x16_0_1_2
    (broadcastInDim S2048x1x16 ![0, 2] bcast_S2048x16_S2048x1x16_0_2
      (cmpi .slt
        (broadcastInDim S2048x16 ![0, 1] bcast_S1x16_S2048x16_0_1
          (broadcastInDim S1x16 ![1] bcast_S16_S1x16_1 (iotaInDim S16 32 0)))
        (broadcastInDim S2048x16 ![0, 1] bcast_S2048x1_S2048x16_0_1
          (broadcastInDim S2048x1 ![0] bcast_S2048_S2048x1_0 (lengths x5)))))

/-- The second result: lengths as a column. -/
def lengthsCol (x5 : Classes) : IVec S2048x1 32 :=
  broadcastInDim S2048x1 ![0] bcast_S2048_S2048x1_0 (lengths x5)

/-- The quiet-NaN word at every position of the cost array. -/
def nans : Cost :=
  broadcastInDim S2048x16x16 ![] bcast_S_S2048x16x16 (id (constant (F := Ideal) S_ .f32 0x7FC00000#32))

/-- The first result: the weighted sum of the five terms (every weight 1.0) where the column is valid,
    NaN elsewhere. -/
def result (x0 : FVec Ideal S2048x16x5 .f32) (x1 x2 : Logits) (x3 x4 : Boxes) (x5 : Classes) : Cost :=
  select (colMask x5)
    (addf (addf (addf (addf (mulf ones (cls x0 x5)) (mulf ones (dice x1 x2))) (mulf ones (ce x1 x2)))
      (mulf ones (focal x1 x2))) (mulf ones (mae x3 x4 x5)))
    nans

end Cert.RefSide

end
-- ==== Proof.RefResult.lean ====
/-
  What the reference's line leaves in its buffers.  Folding the 182 operations from any contents V, the first
  result buffer ends at the masked weighted sum of the five cost terms of V's argument arrays, the second at
  the lengths column, and no operation writes an argument.
-/
import proofs.«122681_j57569741635899_1_alg».proof.Proof.RefLine
import proofs.«122681_j57569741635899_1_alg».proof.Proof.RefTerms

noncomputable section

namespace Cert.RefSide

open Cert.ReferenceIdeal Cert.ReferenceIdeal.Gen Idealize.ShloMosaic Idealize.ShloMosaic.TcCoe Idealize.SL.Sem Idealize.ShloMosaic.StableHlo

-- the reductions, the gather, the scatter stay folded while the two sides are compared: the comparison never looks inside them
attribute [local irreducible] Host.reduce Host.reduceAdd Host.gather Host.scatter in
set_option maxRecDepth 200000 in
set_option maxHeartbeats 4000000 in
/-- The first result buffer ends at the masked weighted sum of the five terms. -/
theorem result_eq (V : Valuation τ sig (Elt Ideal)) :
    after (ops (F := Ideal)) V (Proc.devRef .tc main_v102)
      = result (V (Proc.devRef .tc main_arg0)) (V (Proc.devRef .tc main_arg1)) (V (Proc.devRef .tc main_arg2)) (V (Proc.devRef .tc main_arg3)) (V (Proc.devRef .tc main_arg4)) (V (Proc.devRef .tc main_arg5)) := by
  after_results_simp
  rfl

attribute [local irreducible] Host.reduce Host.reduceAdd Host.gather Host.scatter in
set_option maxRecDepth 200000 in
set_option maxHeartbeats 4000000 in
/-- The second result buffer ends at the lengths column. -/
theorem lengthsCol_eq (V : Valuation τ sig (Elt Ideal)) :
    after (ops (F := Ideal)) V (Proc.devRef .tc main_v103) = lengthsCol (V (Proc.devRef .tc main_arg5)) := by
  after_results_simp
  rfl

set_option maxRecDepth 200000 in
set_option maxHeartbeats 4000000 in
/-- No operation writes argument 0. -/
theorem arg0_eq (V : Valuation τ sig (Elt Ideal)) :
    after (ops (F := Ideal)) V (Proc.devRef .tc main_arg0) = V (Proc.devRef .tc main_arg0) := by
  after_results_simp

set_option maxRecDepth 200000 in
set_option maxHeartbeats 4000000 in
/-- No operation writes argument 1. -/
theorem arg1_eq (V : Valuation τ sig (Elt Ideal)) :
    after (ops (F := Ideal)) V (Proc.devRef .tc main_arg1) = V (Proc.devRef .tc main_arg1) := by
  after_results_simp

set_option maxRecDepth 200000 in
set_option maxHeartbeats 4000000 in
/-- No operation writes argument 2. -/
theorem arg2_eq (V : Valuation τ sig (Elt Ideal)) :
    after (ops (F := Ideal)) V (Proc.devRef .tc main_arg2) = V (Proc.devRef .tc main_arg2) := by
  after_results_simp

set_option maxRecDepth 200000 in
set_option maxHeartbeats 4000000 in
/-- No operation writes argument 3. -/
theorem arg3_eq (V : Valuation τ sig (Elt Ideal)) :
    after (ops (F := Ideal)) V (Proc.devRef .tc main_arg3) = V (Proc.devRef .tc main_arg3) := by
  after_results_simp

set_option maxRecDepth 200000 in
set_option maxHeartbeats 4000000 in
/-- No operation writes argument 4. -/
theorem arg4_eq (V : Valuation τ sig (Elt Ideal)) :
    after (ops (F := Ideal)) V (Proc.devRef .tc main_arg4) = V (Proc.devRef .tc main_arg4) := by
  after_results_simp

set_option maxRecDepth 200000 in
set_option maxHeartbeats 4000000 in
/-- No operation writes argument 5. -/
theorem arg5_eq (V : Valuation τ sig (Elt Ideal)) :
    after (ops (F := Ideal)) V (Proc.devRef .tc main_arg5) = V (Proc.devRef .tc main_arg5) := by
  after_results_simp

end Cert.RefSide

end
-- ==== Proof.RefRun.lean ====
/-
  The reference program's run, read back: from any memory every weakly fair execution of @main terminates,
  and the result buffers hold the named compositions of the argument arrays (RefTerms), the arguments unchanged.
-/
import proofs.«122681_j57569741635899_1_alg».proof.Proof.RefLine
import proofs.«122681_j57569741635899_1_alg».proof.Proof.RefTerms
import proofs.«122681_j57569741635899_1_alg».proof.Proof.RefResult

noncomputable section

namespace Cert.RefSide

open Cert.ReferenceIdeal Cert.ReferenceIdeal.Gen Idealize.ShloMosaic Idealize.ShloMosaic.TcCoe Idealize.SL.Sem Idealize.ShloMosaic.StableHlo

/-- On every device, from any memory with zero counters: every weakly fair execution of @main terminates with
    the first result at the masked weighted sum of the five cost terms of the arguments, the second at the
    lengths column, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v102)
          = result (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
      ∧ r.2.mem ((c.tc : Thread nD τ).loc main_v103) = lengthsCol (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v102).trans (result_eq _), (h c main_v103).trans (lengthsCol_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.RefSide

end
-- ==== Proof.RefReads.lean ====
/-
  The three mask terms of the reference, read at an index.  Each is a composition of element-wise
  operations, four contractions over the positions, two sums over the positions and four broadcasts;
  read at (b, n, m) the contractions and sums become sums over l of the operands at (b, n, l) and (b, m, l),
  the broadcasts pick the row, and the element-wise operations apply to the elements.  What is left is the
  formula of the specification.
-/
import proofs.«122681_j57569741635899_1_alg».proof.Proof.RefTerms
import proofs.«122681_j57569741635899_1_alg».proof.Proof.Spec
import Idealize.ShloMosaic.PureOps.Ideal.Laws
import Idealize.ShloMosaic.Lib.ValueIdx
import Idealize.ShloMosaic.Lib.Pipeline.Value

noncomputable section

namespace Cert.RefSide

open Cert.ReferenceIdeal Cert.ReferenceIdeal.Gen Idealize.ShloMosaic Idealize.ShloMosaic.ValueIdx
open scoped BigOperators

/-- The contraction's dimension numbers: batch axis 0, contracting axis 2 of both operands. -/
abbrev D : DotDims S2048x16x2048 S2048x16x2048 S2048x16x16 := dot_S2048x16x2048_S2048x16x2048_S2048x16x16_2_2_1_1_0_0

/-! ## The contraction and the sum over the positions, at an index -/

/-- The left operand's index at output (b, n, m) and position k is (b, n, k). -/
theorem lhsIdx_eq (b : Fin 2048) (n m : Fin 16) (k : Fin 2048) :
    D.lhsIdx (ix3 b n m) ((contrEquiv1 D 2048 rfl rfl).symm k) = ix3 b n k := by
  have h0 : (D.lhsIdx (ix3 b n m) ((contrEquiv1 D 2048 rfl rfl).symm k) 0).val = b.val := by
    unfold DotDims.lhsIdx
    rw [dif_pos (show (0 : Fin S2048x16x2048.rank) ∈ D.lhsBatch by decide)]; rfl
  have h1 : (D.lhsIdx (ix3 b n m) ((contrEquiv1 D 2048 rfl rfl).symm k) 1).val = n.val := by
    unfold DotDims.lhsIdx
    rw [dif_neg (show (1 : Fin S2048x16x2048.rank) ∉ D.lhsBatch by decide),
      dif_pos (show (1 : Fin S2048x16x2048.rank) ∈ D.lhsNonContracting by decide)]; rfl
  have h2 : (D.lhsIdx (ix3 b n m) ((contrEquiv1 D 2048 rfl rfl).symm k) 2).val = k.val :=
    (D.lhsIdx_val_of_single (cl := (2 : Fin S2048x16x2048.rank)) rfl (ix3 b n m) _).trans
      (contrEquiv1_symm_val D 2048 rfl rfl k)
  funext a; apply Fin.ext
  match a with
  | ⟨0, _⟩ => exact h0
  | ⟨1, _⟩ => exact h1
  | ⟨2, _⟩ => exact h2

/-- The right operand's index at output (b, n, m) and position k is (b, m, k). -/
theorem rhsIdx_eq (b : Fin 2048) (n m : Fin 16) (k : Fin 2048) :
    D.rhsIdx (ix3 b n m) ((contrEquiv1 D 2048 rfl rfl).symm k) = ix3 b m k := by
  have h0 : (D.rhsIdx (ix3 b n m) ((contrEquiv1 D 2048 rfl rfl).symm k) 0).val = b.val := by
    unfold DotDims.rhsIdx
    rw [dif_pos (show (0 : Fin S2048x16x2048.rank) ∈ D.rhsBatch by decide)]; rfl
  have h1 : (D.rhsIdx (ix3 b n m) ((contrEquiv1 D 2048 rfl rfl).symm k) 1).val = m.val := by
    unfold DotDims.rhsIdx
    rw [dif_neg (show (1 : Fin S2048x16x2048.rank) ∉ D.rhsBatch by decide),
      dif_pos (show (1 : Fin S2048x16x2048.rank) ∈ D.rhsNonContracting by decide)]; rfl
  have h2 : (D.rhsIdx (ix3 b n m) ((contrEquiv1 D 2048 rfl rfl).symm k) 2).val = k.val :=
    (D.rhsIdx_val_of_single (cr := (2 : Fin S2048x16x2048.rank)) rfl (ix3 b n m) _).trans
      (contrEquiv1_symm_val D 2048 rfl rfl k)
  funext a; apply Fin.ext
  match a with
  | ⟨0, _⟩ => exact h0
  | ⟨1, _⟩ => exact h1
  | ⟨2, _⟩ => exact h2

/-- The contraction at (b, n, m): the sum over the positions of L[b,n,l] * R[b,m,l]. -/
theorem dot_apply (L R : Logits) (b : Fin 2048) (n m : Fin 16) :
    dot L R (ix3 b n m) = ∑ k : Fin 2048, L (ix3 b n k) * R (ix3 b m k) := by
  unfold dot
  simp only [Host.dotGeneral]
  rw [Ideal.dotGeneral_apply, ← Equiv.sum_comp (contrEquiv1 D 2048 rfl rfl).symm]
  refine Finset.sum_congr rfl fun k _ => ?_
  rw [lhsIdx_eq, rhsIdx_eq]

/-- The sum over the positions at (b, n). -/
theorem rowSum_apply (x : Logits) (b : Fin 2048) (n : Fin 16) :
    rowSum x (ix2 b n) = ∑ k : Fin 2048, x (ix3 b n k) := by
  unfold rowSum
  simp only [Host.reduceAdd, Ideal.hostReduceAdd_def]
  rw [Ideal.hostReduceAdd_single reducesTo_S2048x16x2048_S2048x16_d2 (by decide)]
  show Ideal.ofBits .f32 0x00000000#32 + _ = _
  rw [Ideal.ofBits_zero_f32, zero_add]
  refine Finset.sum_congr rfl fun k _ => congrArg x ?_
  funext a
  match a with
  | ⟨0, _⟩ => rfl
  | ⟨1, _⟩ => rfl
  | ⟨2, _⟩ => rfl

/-! ## The broadcasts at an index -/

/-- A [2048,16] array laid along the prediction rows reads its (b, n) entry at (b, n, m). -/
theorem alongN_apply (r : FVec Ideal S2048x16 .f32) (b : Fin 2048) (n m : Fin 16) :
    alongN r (ix3 b n m) = r (ix2 b n) := by
  unfold alongN
  refine (broadcastInDim_apply _ _ _ (ix3 b n m) (ix3 b n (0 : Fin 1)) fun a => ?_).trans ?_
  · match a with
    | ⟨0, _⟩ => show b.val = if (2048 : Nat) = 1 then 0 else b.val; rw [if_neg (by decide)]
    | ⟨1, _⟩ => show n.val = if (16 : Nat) = 1 then 0 else n.val; rw [if_neg (by decide)]
    | ⟨2, _⟩ => show (0 : Nat) = if (1 : Nat) = 1 then 0 else m.val; rw [if_pos rfl]
  · refine broadcastInDim_apply _ _ _ (ix3 b n (0 : Fin 1)) (ix2 b n) fun a => ?_
    match a with
    | ⟨0, _⟩ => show b.val = if (2048 : Nat) = 1 then 0 else b.val; rw [if_neg (by decide)]
    | ⟨1, _⟩ => show n.val = if (16 : Nat) = 1 then 0 else n.val; rw [if_neg (by decide)]

/-- A [2048,16] array laid along the target rows reads its (b, m) entry at (b, n, m). -/
theorem alongM_apply (r : FVec Ideal S2048x16 .f32) (b : Fin 2048) (n m : Fin 16) :
    alongM r (ix3 b n m) = r (ix2 b m) := by
  unfold alongM
  refine (broadcastInDim_apply _ _ _ (ix3 b n m) (ix3 b (0 : Fin 1) m) fun a => ?_).trans ?_
  · match a with
    | ⟨0, _⟩ => show b.val = if (2048 : Nat) = 1 then 0 else b.val; rw [if_neg (by decide)]
    | ⟨1, _⟩ => show (0 : Nat) = if (1 : Nat) = 1 then 0 else n.val; rw [if_pos rfl]
    | ⟨2, _⟩ => show m.val = if (16 : Nat) = 1 then 0 else m.val; rw [if_neg (by decide)]
  · refine broadcastInDim_apply _ _ _ (ix3 b (0 : Fin 1) m) (ix2 b m) fun a => ?_
    match a with
    | ⟨0, _⟩ => show b.val = if (2048 : Nat) = 1 then 0 else b.val; rw [if_neg (by decide)]
    | ⟨1, _⟩ => show m.val = if (16 : Nat) = 1 then 0 else m.val; rw [if_neg (by decide)]

/-- A filled cost array reads its word everywhere. -/
theorem fillO_apply (w : BitVec 32) (j : S2048x16x16.Idx) : fillO w j = Ideal.ofBits .f32 w := rfl
/-- A filled logits array reads its word everywhere. -/
theorem fill3_apply (w : BitVec 32) (j : S2048x16x2048.Idx) : fill3 w j = Ideal.ofBits .f32 w := rfl

/-! ## The element-wise pieces at an index -/

/-- The program's 1 / (1 + exp(-x)), from the word of 1.0, is the sigmoid. -/
theorem prob_apply (x1 : Logits) (j : S2048x16x2048.Idx) : prob x1 j = Ideal.logistic (x1 j) := by
  show Ideal.div (Ideal.ofBits .f32 0x3F800000#32) (Ideal.ofBits .f32 0x3F800000#32 + Ideal.exp (-(x1 j))) = _
  rw [Cert.Scalars.ofBits_one]
  rfl

/-- The outlined softplus at an element is the softplus of the element. -/
theorem softplusOf_apply (v : Logits) (j : S2048x16x2048.Idx) : softplusOf v j = Cert.Scalars.softplus (v j) := by
  show Cert.Scalars.softplusR (v j) = _
  exact Cert.Scalars.softplusR_eq (v j)

theorem pos_apply (x1 : Logits) (j : S2048x16x2048.Idx) : pos x1 j = Cert.Scalars.softplus (-(x1 j)) := by
  unfold pos
  rw [softplusOf_apply]
  rfl

theorem neg_apply (x1 : Logits) (j : S2048x16x2048.Idx) : neg x1 j = Cert.Scalars.softplus (x1 j) := by
  unfold neg
  rw [softplusOf_apply]

theorem oneMinus_apply (x2 : Logits) (j : S2048x16x2048.Idx) : oneMinus x2 j = Cert.Spec.w1 - x2 j := rfl

/-- (1 - P)^2 * softplus(-x) at an element, the square as a product. -/
theorem fpos_apply (x1 : Logits) (j : S2048x16x2048.Idx) :
    mulf (Host.powf (subf ones3 (prob x1)) twos3) (pos x1) j
      = ((Cert.Spec.w1 - Ideal.logistic (x1 j)) * (Cert.Spec.w1 - Ideal.logistic (x1 j))) * Cert.Scalars.softplus (-(x1 j)) := by
  show Ideal.pow (Ideal.ofBits .f32 0x3F800000#32 - prob x1 j) (Ideal.ofBits .f32 0x40000000#32) * pos x1 j = _
  rw [prob_apply, pos_apply, Cert.Scalars.pow_two_one_sub_logistic]

/-- P^2 * softplus(x) at an element, the square as a product. -/
theorem fneg_apply (x1 : Logits) (j : S2048x16x2048.Idx) :
    mulf (Host.powf (prob x1) twos3) (neg x1) j
      = (Ideal.logistic (x1 j) * Ideal.logistic (x1 j)) * Cert.Scalars.softplus (x1 j) := by
  show Ideal.pow (prob x1 j) (Ideal.ofBits .f32 0x40000000#32) * neg x1 j = _
  rw [prob_apply, neg_apply, Cert.Scalars.pow_two_logistic]

/-! ## The three terms at an index -/

/-- The reference's dice term at (b, n, m) is the specification's. -/
theorem dice_apply (x1 x2 : Logits) (b : Fin 2048) (n m : Fin 16) :
    dice x1 x2 (ix3 b n m) = Cert.Spec.dice (B := 2048) (N := 16) (L := 2048) x1 x2 b n m := by
  have e : dice x1 x2 (ix3 b n m)
      = Cert.Spec.w1 - Ideal.div (Cert.Spec.w2 * dot (prob x1) x2 (ix3 b n m) + Cert.Spec.w1)
          ((alongN (rowSum (prob x1)) (ix3 b n m) + alongM (rowSum x2) (ix3 b n m)) + Cert.Spec.w1) := rfl
  rw [e, dot_apply, alongN_apply, alongM_apply, rowSum_apply, rowSum_apply]
  simp only [prob_apply]
  rfl

/-- The reference's cross-entropy term at (b, n, m) is the specification's. -/
theorem ce_apply (x1 x2 : Logits) (b : Fin 2048) (n m : Fin 16) :
    ce x1 x2 (ix3 b n m) = Cert.Spec.ce (B := 2048) (N := 16) (L := 2048) x1 x2 b n m := by
  have e : ce x1 x2 (ix3 b n m)
      = Ideal.div (dot (pos x1) x2 (ix3 b n m) + dot (neg x1) (oneMinus x2) (ix3 b n m)) Cert.Spec.wL := rfl
  rw [e, dot_apply, dot_apply]
  simp only [pos_apply, neg_apply, oneMinus_apply]
  rfl

/-- The reference's focal term at (b, n, m) is the specification's. -/
theorem focal_apply (x1 x2 : Logits) (b : Fin 2048) (n m : Fin 16) :
    focal x1 x2 (ix3 b n m) = Cert.Spec.focal (B := 2048) (N := 16) (L := 2048) x1 x2 b n m := by
  have e : focal x1 x2 (ix3 b n m)
      = Ideal.div (dot (mulf (Host.powf (subf ones3 (prob x1)) twos3) (pos x1)) x2 (ix3 b n m)
          + dot (mulf (Host.powf (prob x1) twos3) (neg x1)) (oneMinus x2) (ix3 b n m)) Cert.Spec.wL := rfl
  rw [e, dot_apply, dot_apply]
  simp only [fpos_apply, fneg_apply, oneMinus_apply]
  rfl

end Cert.RefSide

end
-- ==== Proof.Bridge.lean ====
/-
  The two first results are one array.  The kernel's is  select(colMask, (1·cls + maskCost) + 1·mae, junk),
  the reference's  select(colMask, (((1·cls + 1·dice) + 1·ce) + 1·focal) + 1·mae, junk).  The column mask,
  the class cost, the regression error and the junk word are the same compositions of the same host
  operations in both programs.  At every index the kernel's mask cost is (dice + ce) + focal of the
  reference's three terms (each of them read at the index is the term of the one formula), the weight
  is the real 1, and addition of extended reals is associative: the sums agree.
-/
import proofs.«122681_j57569741635899_1_alg».proof.Proof.KernelHost
import proofs.«122681_j57569741635899_1_alg».proof.Proof.KernelArray
import proofs.«122681_j57569741635899_1_alg».proof.Proof.RefTerms
import proofs.«122681_j57569741635899_1_alg».proof.Proof.RefReads
import Idealize.ShloMosaic.Lib.ValueIdx

noncomputable section

open Idealize.ShloMosaic Idealize.ShloMosaic.ValueIdx

namespace Cert.Bridge

open Cert.KernelIdeal

abbrev KArr (s : Shape) (e : EltTy) := Cert.KernelHost.Arr s e

attribute [local irreducible] Host.reduce Host.reduceAdd Host.gather Host.scatter in
set_option maxRecDepth 65536 in
/-- The column mask is the same function of the object classes in both programs. -/
theorem colMask_eq (x5 : KArr S2048x16 .i32) :
    Cert.KernelHost.colMask (Cert.KernelHost.lengths x5) = Cert.RefSide.colMask x5 := rfl

attribute [local irreducible] Host.reduce Host.reduceAdd Host.gather Host.scatter in
set_option maxRecDepth 65536 in
/-- So is the class cost, of the class probabilities and the object classes. -/
theorem cls_eq (x0 : KArr S2048x16x5 .f32) (x5 : KArr S2048x16 .i32) :
    Cert.KernelHost.cls x0 x5 = Cert.RefSide.cls x0 x5 := rfl

attribute [local irreducible] Host.reduce Host.reduceAdd Host.gather Host.scatter in
set_option maxRecDepth 65536 in
/-- So is the regression error. -/
theorem mae_eq (x3 x4 : KArr S2048x16x4 .f32) (x5 : KArr S2048x16 .i32) :
    Cert.KernelHost.mae x3 x4 (Cert.KernelHost.validObj x5) = Cert.RefSide.mae x3 x4 x5 := rfl

/-- And the junk word and the unit weight. -/
theorem junk_eq : Cert.KernelHost.junk = Cert.RefSide.nans := rfl
theorem ones_eq : Cert.KernelHost.ones = Cert.RefSide.ones := rfl

attribute [local irreducible] Host.reduce Host.reduceAdd Host.gather Host.scatter in
set_option maxRecDepth 65536 in
/-- And the second result. -/
theorem lengthsCol_eq (x5 : KArr S2048x16 .i32) :
    Cert.KernelHost.lengthsCol (Cert.KernelHost.lengths x5) = Cert.RefSide.lengthsCol x5 := rfl

/-- The unit weight at an index is the real 1. -/
theorem ones_apply (i : S2048x16x16.Idx) : Cert.RefSide.ones i = 1 :=
  (show Cert.RefSide.ones i = Ideal.ofBits .f32 0x3F800000#32 from rfl).trans Cert.Scalars.ofBits_one

/-- The weighted sums agree at every index. -/
theorem cost_eq (C E : FVec Ideal S2048x16x16 .f32) (x1 x2 : KArr S2048x16x2048 .f32) :
    addf (F := Ideal) (s := S2048x16x16) (φ := .f32)
        (addf (F := Ideal) (s := S2048x16x16) (φ := .f32) (mulf (F := Ideal) (s := S2048x16x16) (φ := .f32) Cert.RefSide.ones C) (Cert.KernelArray.G x1 x2))
        (mulf (F := Ideal) (s := S2048x16x16) (φ := .f32) Cert.RefSide.ones E)
      = addf (addf (addf (addf (mulf Cert.RefSide.ones C) (mulf Cert.RefSide.ones (Cert.RefSide.dice x1 x2)))
          (mulf Cert.RefSide.ones (Cert.RefSide.ce x1 x2))) (mulf Cert.RefSide.ones (Cert.RefSide.focal x1 x2)))
          (mulf Cert.RefSide.ones E) := by
  funext i
  obtain ⟨b, n, k, rfl⟩ : ∃ (b : Fin 2048) (n k : Fin 16), i = ix3 b n k := ⟨i 0, i 1, i 2, eq_ix3 i⟩
  simp only [addf_apply, mulf_apply, ones_apply, one_mul]
  rw [Cert.RefSide.dice_apply, Cert.RefSide.ce_apply, Cert.RefSide.focal_apply]
  show C (ix3 b n k) + Cert.Spec.maskCost (B := 2048) (N := 16) (L := 2048) x1 x2 b n k + E (ix3 b n k) = _
  unfold Cert.Spec.maskCost
  simp only [add_assoc]

/-- The kernel's first result is the reference's. -/
theorem result_eq (x0 : KArr S2048x16x5 .f32) (x1 x2 : KArr S2048x16x2048 .f32) (x3 x4 : KArr S2048x16x4 .f32)
    (x5 : KArr S2048x16 .i32) :
    Cert.KernelHost.tail (Cert.KernelHost.validObj x5) (Cert.KernelHost.lengths x5) (Cert.KernelHost.cls x0 x5)
        (Cert.KernelArray.G x1 x2) x3 x4
      = Cert.RefSide.result x0 x1 x2 x3 x4 x5 := by
  unfold Cert.KernelHost.tail Cert.RefSide.result
  rw [colMask_eq, cls_eq, mae_eq, junk_eq, ones_eq, cost_eq]

end Cert.Bridge

end
-- ==== Proof.lean ====
/-
  The matcher's pairwise cost: a kernel that streams the mask logits and mask targets once, sixteen batch
  elements at a time, and writes the dice + cross-entropy + focal cost of every prediction against every
  target, with the class cost and the box error left to host arithmetic around it — against a reference
  that computes all five terms with whole-array operations.  Both are read at the ideal values, where a
  float is an extended real and every operation is exact.

  The five claims:
  * the three frames — the two kernel programs by their generated frame certificates, the reference by
    its run (RefRun) with the results dropped;
  * the idealization rewrote nothing, so its claim is trivial;
  * the two idealized programs end with equal results.  The kernel's run (KernelRun) names its first
    result: the host tail applied to the class cost, the region's output array and the box error, the
    region's array being the mask cost of the arguments index by index (KernelBlock: the body at an
    index; KernelArray: the 128 tiles cover the array).  The reference's run names its first result as
    the select over the sum of the five weighted terms, and its three mask terms read at an index are
    the terms of the same formula (RefReads).  The sums agree (Bridge): the sigmoid the kernel takes as
    one operation is 1 / (1 + exp(-x)) by definition; the reference's powers with exponent 2 are squares
    because a sigmoid is a real number; the softplus guards never fire on a linear order; narrowing the
    products' operands is the identity; the kernel's product into a zero accumulator and the host's
    contraction are the same sum, as are the two lane sums; the weights are the real 1; and addition of
    extended reals is associative.  No step needs the inputs to be finite.
-/
import proofs.«122681_j57569741635899_1_alg».proof.Defs
import proofs.«122681_j57569741635899_1_alg».proof.Proof.Gen.Kernel
import proofs.«122681_j57569741635899_1_alg».proof.Proof.Gen.Kernel.Skeleton
import proofs.«122681_j57569741635899_1_alg».proof.Proof.Gen.Kernel.Launch
import proofs.«122681_j57569741635899_1_alg».proof.Proof.Gen.Kernel.Points
import proofs.«122681_j57569741635899_1_alg».proof.Proof.Gen.Kernel.Frame
import proofs.«122681_j57569741635899_1_alg».proof.Proof.Gen.KernelIdeal
import proofs.«122681_j57569741635899_1_alg».proof.Proof.Gen.KernelIdeal.Skeleton
import proofs.«122681_j57569741635899_1_alg».proof.Proof.Gen.KernelIdeal.Launch
import proofs.«122681_j57569741635899_1_alg».proof.Proof.Gen.KernelIdeal.Points
import proofs.«122681_j57569741635899_1_alg».proof.Proof.Gen.KernelIdeal.Frame
import proofs.«122681_j57569741635899_1_alg».proof.Proof.Gen.ReferenceIdeal
import proofs.«122681_j57569741635899_1_alg».proof.Proof.Gen.Pre_finite_inputs
import proofs.«122681_j57569741635899_1_alg».proof.Proof.KernelBlock
import proofs.«122681_j57569741635899_1_alg».proof.Proof.KernelRun
import proofs.«122681_j57569741635899_1_alg».proof.Proof.RefRun
import proofs.«122681_j57569741635899_1_alg».proof.Proof.Bridge
import Idealize.ShloMosaic.Adequacy
import Idealize.ShloMosaic.Init

noncomputable section

namespace Cert.Proof

open Idealize.ShloMosaic Idealize.SL.Sem

/-- The word-level kernel runs and leaves its arguments unchanged: its generated frame certificate. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run with the two results dropped. -/
theorem frame_referenceIdeal : Cert.frame_ReferenceIdeal := fun m ρ _ =>
  (θ_run Cert.ReferenceIdeal.defs _ _).mono (fun _ h c => (h c).2.2) (Cert.RefSide.run m ρ)

/-- From memories that agree on the arguments the two idealized programs end with equal results: the cost
    array by the agreement of the two named results, the counts column as the same function of the object
    classes. -/
theorem algebraic : Cert.algebraic_KernelIdeal_ReferenceIdeal := by
  intro m ρ m' ρ' _ hagree
  refine ⟨_, _, Cert.KernelRun.run m ρ Cert.KernelBlock.payload_apply, ?_⟩
  refine (θ_run Cert.ReferenceIdeal.defs _ _).mono (fun _ h c => ?_) (Cert.RefSide.run m' ρ')
  obtain ⟨a0, a1, a2, a3, a4, a5⟩ := hagree c
  refine ⟨(h c).1.trans ?_, (h c).2.1.trans ?_, (h c).2.2⟩
  · rw [a0, a1, a2, a3, a4, a5]
    exact (Cert.Bridge.result_eq _ _ _ _ _ _).symm
  · rw [a5]
    exact (Cert.Bridge.lengthsCol_eq _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
